-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .bf16⟩
  | .hbm, ⟨38, _⟩ => ⟨S850000x128, .f32⟩
  | .hbm, ⟨39, _⟩ => ⟨S_, .f32⟩
  | .hbm, ⟨40, _⟩ => ⟨S50000x128, .f32⟩
  | .hbm, ⟨41, _⟩ => ⟨S850000x1, .i32⟩
  | .hbm, ⟨42, _⟩ => ⟨S50000x128, .f32⟩
  | .hbm, ⟨43, _⟩ => ⟨S1x128, .f32⟩
  | .hbm, ⟨44, _⟩ => ⟨S50000x40, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x40, .bf16⟩
  | .hbm, ⟨54, _⟩ => ⟨S850000x40, .f32⟩
  | .hbm, ⟨55, _⟩ => ⟨S_, .f32⟩
  | .hbm, ⟨56, _⟩ => ⟨S50000x40, .f32⟩
  | .hbm, ⟨57, _⟩ => ⟨S850000x1, .i32⟩
  | .hbm, ⟨58, _⟩ => ⟨S50000x40, .f32⟩
  | .hbm, ⟨59, _⟩ => ⟨S1x40, .f32⟩
  | .hbm, ⟨60, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x40, .f32⟩
  | .local _ .vmem, ⟨13, _⟩ => ⟨S5000x40, .bf16⟩
  | .local _ .vmem, ⟨14, _⟩ => ⟨S5000x40, .bf16⟩
  | .local _ .vmem, ⟨15, _⟩ => ⟨S5000x40, .f32⟩
  | .local _ .vmem, ⟨16, _⟩ => ⟨S5000x40, .f32⟩
  | .local _ .vmem, ⟨17, _⟩ => ⟨S5000x1, .f32⟩
  | .local _ .vmem, ⟨18, _⟩ => ⟨S5000x1, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  packedbf16_S5000x40_S5000x40_0_0 : (Rect.unit (s := S5000x40) ![0, 0] S5000x40.size inb_S5000x40_S5000x40_0_0).PackedRows (EltTy.packing .bf16)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S50000x40.size a
  hwx1_4 : ∀ i : grid1.Coords, EltTy.bits .bf16 = 32 ∨ (Rect.block (s := S50000x40) S5000x40.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x40, .f32⟩
  | .hbm, ⟨96, _⟩ => ⟨S50000x40, .f32⟩
  | .hbm, ⟨97, _⟩ => ⟨S50000x40, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x40, .f32⟩
  | .hbm, ⟨103, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KRun.lean ====
/-
  The kernel program's run with its result named.

  The program is three kernel regions among stretches of host operations. Its run is the launch of those segments
  in order; at every boundary between two segments the contents of every buffer are known as a fold from the launch
  memory: a host stretch applies its operations, a region leaves each of its arrays at what its grid points wrote
  back and every other buffer as it was. Every execution ends with each unscoped buffer at the last boundary's
  contents. Read at the argument buffers this is the frame (the arguments end as launched); read at the result
  buffer it names the result: the contents the last region leaves in its output array.
-/
import proofs.«155907_j6236292514024_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run_result : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The result buffer is the last region's output array: what its ten grid points wrote back. -/
theorem result_arr (c : Dev nD) : W8 m ρ c (Proc.devRef .tc main_v42) = (dat2 (V7 m ρ) c).arrAt 3 cfg2.N :=
  W8_arr m ρ c 3

end Cert.KernelIdeal.Val

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.LibDegree.lean ====
/-
  Counting edges per node, flat or as a column.

  An accumulating scatter adds, to each entry of its operand, the update values whose computed position is that entry;
  the position of an update is, on every operand axis, a start read off the index array plus the update's own window
  coordinate.  Two layouts of one count are compared: one value per edge scattered into a flat array with one entry
  per node, and the same values carried with a trailing axis of size one scattered into an array with one row of one
  entry per node.  In both the only start is the edge's destination index on the node axis and every window
  coordinate is zero, so an edge lands on node i exactly when its destination index is i (an index outside the array
  lands nowhere), and the two arrays agree entry by entry.
-/
import Idealize.ShloMosaic.PureOps.Ideal
import Idealize.ShloMosaic.Lib.ValueIdx

noncomputable section

namespace Cert.Sage

open Idealize.ShloMosaic Idealize.ShloMosaic.ValueIdx

/-- An update lands on the operand element i exactly when, on every axis, its start plus its window coordinate is
    i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      show _ = (((d.start j idx a + (d.window j a : Int)).toNat : ℕ) : Int)
      rw [Int.toNat_of_nonneg (h a).1]
    · intro hi
      funext a
      apply Fin.ext
      show (d.start j idx a + (d.window j a : Int)).toNat = (i a).val
      rw [hi a]; rfl
  · rename_i h
    constructor
    · intro h'; cases h'
    · intro hi
      exact absurd (fun a => by rw [hi a]; exact ⟨Int.natCast_nonneg _, by exact_mod_cast (i a).isLt⟩) h

variable {N E w : ℕ}

section Flat
variable (wf1 : ScatterDims.WF ⟨1, ![N]⟩ ⟨2, ![E, 1]⟩ ⟨1, ![E]⟩ [] [0] [0] 1)

theorem flat_start (idx : IVec ⟨2, ![E, 1]⟩ w) (e : Fin E) :
    (⟨[], [0], [0], 1, wf1⟩ : ScatterDims ⟨1, ![N]⟩ ⟨2, ![E, 1]⟩ ⟨1, ![E]⟩).start (ix1 e) idx 0 = (idx (ix2 e 0)).toInt := by
  unfold ScatterDims.start
  rw [dif_pos (by simp)]
  congr 2
  funext b
  match b with
  | ⟨0, _⟩ => rfl
  | ⟨1, _⟩ => rfl

theorem flat_window (e : Fin E) :
    (⟨[], [0], [0], 1, wf1⟩ : ScatterDims ⟨1, ![N]⟩ ⟨2, ![E, 1]⟩ ⟨1, ![E]⟩).window (ix1 e) 0 = 0 := by
  unfold ScatterDims.window
  rw [dif_neg (by simp [ScatterDims.sKept, Shape.kept, List.finRange])]

theorem flat_lands (idx : IVec ⟨2, ![E, 1]⟩ w) (e : Fin E) (i : Fin N) :
    (⟨[], [0], [0], 1, wf1⟩ : ScatterDims ⟨1, ![N]⟩ ⟨2, ![E, 1]⟩ ⟨1, ![E]⟩).resultIdx? (ix1 e) idx = some (ix1 i)
      ↔ (idx (ix2 e 0)).toInt = (i.val : Int) := by
  rw [resultIdx?_eq_some_iff]
  constructor
  · intro h
    have h0 := h 0
    rw [flat_start, flat_window, Nat.cast_zero, add_zero] at h0
    exact h0
  · intro h a
    match a with
    | ⟨0, _⟩ =>
      show ScatterDims.start _ (ix1 e) idx 0 + ((ScatterDims.window _ (ix1 e) 0 : ℕ) : Int) = _
      rw [flat_start, flat_window, h]; simp
end Flat

section Col
variable (wf2 : ScatterDims.WF ⟨2, ![N, 1]⟩ ⟨2, ![E, 1]⟩ ⟨2, ![E, 1]⟩ [1] [0] [0] 1)

theorem col_start0 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 0 = (idx (ix2 e 0)).toInt := by
  unfold ScatterDims.start
  rw [dif_pos (by simp)]
  congr 2
  funext b
  match b with
  | ⟨0, _⟩ => rfl
  | ⟨1, _⟩ => rfl

theorem col_start1 (idx : IVec ⟨2, ![E, 1]⟩ w) (e : Fin E) :
    (⟨[1], [0], [0], 1, wf2⟩ : ScatterDims ⟨2, ![N, 1]⟩ ⟨2, ![E, 1]⟩ ⟨2, ![E, 1]⟩).start (ix2 e 0) idx 1 = 0 := by
  unfold ScatterDims.start
  rw [dif_neg (by simp)]

theorem col_window0 (e : Fin E) :
    (⟨[1], [0], [0], 1, wf2⟩ : ScatterDims ⟨2, ![N, 1]⟩ ⟨2, ![E, 1]⟩ ⟨2, ![E, 1]⟩).window (ix2 e 0) 0 = 0 := by
  unfold ScatterDims.window
  rw [dif_neg (by simp [ScatterDims.sKept, Shape.kept, List.finRange])]

theorem col_window1 (e : Fin E) :
    (⟨[1], [0], [0], 1, wf2⟩ : ScatterDims ⟨2, ![N, 1]⟩ ⟨2, ![E, 1]⟩ ⟨2, ![E, 1]⟩).window (ix2 e 0) 1 = 0 := by
  unfold ScatterDims.window
  split
  · rfl
  · rfl

theorem col_lands (idx : IVec ⟨2, ![E, 1]⟩ w) (e : Fin E) (i : Fin N) :
    (⟨[1], [0], [0], 1, wf2⟩ : ScatterDims ⟨2, ![N, 1]⟩ ⟨2, ![E, 1]⟩ ⟨2, ![E, 1]⟩).resultIdx? (ix2 e 0) idx = some (ix2 i 0)
      ↔ (idx (ix2 e 0)).toInt = (i.val : Int) := by
  rw [resultIdx?_eq_some_iff]
  constructor
  · intro h
    have h0 := h 0
    rw [col_start0, col_window0, Nat.cast_zero, add_zero] at h0
    exact h0
  · intro h a
    match a with
    | ⟨0, _⟩ =>
      show ScatterDims.start _ (ix2 e 0) idx 0 + ((ScatterDims.window _ (ix2 e 0) 0 : ℕ) : Int) = _
      rw [col_start0, col_window0, h]; simp
    | ⟨1, _⟩ =>
      show ScatterDims.start _ (ix2 e 0) idx 1 + ((ScatterDims.window _ (ix2 e 0) 1 : ℕ) : Int) = _
      rw [col_start1, col_window1]; rfl
end Col

/-- The flat edge indices are the edges. -/
def flatEquiv : (⟨1, ![E]⟩ : Shape).Idx ≃ Fin E where
  toFun j := j 0
  invFun e := ix1 e
  left_inv j := (eq_ix1 j).symm
  right_inv _ := rfl

/-- The edge indices carrying a trailing unit axis are the edges. -/
def colEquiv : (⟨2, ![E, 1]⟩ : Shape).Idx ≃ Fin E where
  toFun j := j 0
  invFun e := ix2 e 0
  left_inv j := by
    funext a
    match a with
    | ⟨0, _⟩ => rfl
    | ⟨1, _⟩ =>
      apply Fin.ext
      have h : (j 1).val < 1 := (j 1).isLt
      show 0 = (j 1).val
      omega
  right_inv _ := rfl

/-- THE DEGREE COUNT, flat or as a column: scattering one value per edge into a flat array of N entries, and
    scattering the same values carried with a trailing unit axis into an N by 1 array, give the same entry at every
    node: both add the values of the edges whose destination index is the node. -/
theorem scatterAdd_flat_eq_col
    (wf1 : ScatterDims.WF ⟨1, ![N]⟩ ⟨2, ![E, 1]⟩ ⟨1, ![E]⟩ [] [0] [0] 1)
    (wf2 : ScatterDims.WF ⟨2, ![N, 1]⟩ ⟨2, ![E, 1]⟩ ⟨2, ![E, 1]⟩ [1] [0] [0] 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Ideal.hostScatterAdd (⟨[], [0], [0], 1, wf1⟩ : ScatterDims ⟨1, ![N]⟩ ⟨2, ![E, 1]⟩ ⟨1, ![E]⟩) x1 idx u1 (ix1 i)
      = Ideal.hostScatterAdd (⟨[1], [0], [0], 1, wf2⟩ : ScatterDims ⟨2, ![N, 1]⟩ ⟨2, ![E, 1]⟩ ⟨2, ![E, 1]⟩) x2 idx u2 (ix2 i 0) := by
  unfold Ideal.hostScatterAdd
  rw [hx]
  congr 1
  rw [Finset.sum_filter, Finset.sum_filter, ← flatEquiv.symm.sum_comp, ← colEquiv.symm.sum_comp]
  refine Finset.sum_congr rfl fun e _ => ?_
  show (if ScatterDims.resultIdx? _ (ix1 e) idx = some (ix1 i) then u1 (ix1 e) else 0)
     = (if ScatterDims.resultIdx? _ (ix2 e 0) idx = some (ix2 i 0) then u2 (ix2 e 0) else 0)
  rw [hu e]
  exact if_congr ((flat_lands wf1 idx e i).trans (col_lands wf2 idx e i).symm) rfl rfl

/-- The same comparison for any two records of scatter dimension numbers with those axis lists, stated for the host's
    accumulating scatter itself. -/
theorem scatterAdd_flat_eq_col'
    (d1 : ScatterDims ⟨1, ![N]⟩ ⟨2, ![E, 1]⟩ ⟨1, ![E]⟩) (d2 : ScatterDims ⟨2, ![N, 1]⟩ ⟨2, ![E, 1]⟩ ⟨2, ![E, 1]⟩)
    (h1u : d1.updateWindowDims = []) (h1i : d1.insertedWindowDims = [0]) (h1s : d1.scatterDimsToOperandDims = [0])
    (h1v : d1.indexVectorDim = 1)
    (h2u : d2.updateWindowDims = [1]) (h2i : d2.insertedWindowDims = [0]) (h2s : d2.scatterDimsToOperandDims = [0])
    (h2v : d2.indexVectorDim = 1)
    (x1 : (⟨1, ![N]⟩ : Shape).Idx → EReal) (x2 : (⟨2, ![N, 1]⟩ : Shape).Idx → EReal)
    (u1 : (⟨1, ![E]⟩ : Shape).Idx → EReal) (u2 : (⟨2, ![E, 1]⟩ : Shape).Idx → EReal)
    (idx : IVec ⟨2, ![E, 1]⟩ w) (i : Fin N)
    (hx : x1 (ix1 i) = x2 (ix2 i 0)) (hu : ∀ e : Fin E, u1 (ix1 e) = u2 (ix2 e 0)) :
    Host.scatterAdd (F := Ideal) (φ := .f32) d1 x1 idx u1 (ix1 i) = Host.scatterAdd (F := Ideal) (φ := .f32) d2 x2 idx u2 (ix2 i 0) := by
  obtain ⟨a1, b1, c1, v1, wf1⟩ := d1
  obtain ⟨a2, b2, c2, v2, wf2⟩ := d2
  dsimp only at h1u h1i h1s h1v h2u h2i h2s h2v
  subst h1u h1i h1s h1v h2u h2i h2s h2v
  exact scatterAdd_flat_eq_col wf1 wf2 x1 x2 u1 u2 idx i hx hu

end Cert.Sage
end
-- ==== Proof.LibSegment.lean ====
/-
  An accumulating scatter of rows, read at one entry as a plain sum over the edges, for any sizes.

  The operand has N rows of C entries, the index array has one word per edge (carried with a trailing unit axis), and
  the updates have one row of C entries per edge.  The position of the update (e, c') is, on the row axis, the edge's
  word read as a signed integer (not clamped) plus a zero window coordinate, and on the column axis a zero start plus
  the window coordinate c'.  So the update (e, c') lands on the operand's entry (h, c) exactly when the edge's word
  reads as h and c' = c; a word that reads as no row lands nowhere.  The scatter's sum over the updates that land on
  (h, c) is therefore a double sum over edges and columns in which, for every edge, only the column c survives:

      scatter(x, idx, U)(h, c) = x(h, c) + ∑ e, (if idx(e) reads as h then U(e, c) else 0).
-/
import proofs.«155907_j6236292514024_2_alg».proof.Proof.LibRows
import proofs.«155907_j6236292514024_2_alg».proof.Proof.LibDegree

noncomputable section

namespace Cert.LibSegment

open Idealize.ShloMosaic Idealize.ShloMosaic.ValueIdx

variable {N E C w : ℕ}

section RowScatter
variable (wfS : ScatterDims.WF ⟨2, ![N, C]⟩ ⟨2, ![E, 1]⟩ ⟨2, ![E, C]⟩ [1] [0] [0] 1)

/-- On the column axis the window starts at zero: no component of the index array names that axis. -/
theorem scat_start1 (idx : IVec ⟨2, ![E, 1]⟩ w) (e : Fin E) (c : Fin C) :
    (Cert.LibRows.scatDims wfS).start (ix2 e c) idx 1 = 0 := by
  unfold ScatterDims.start
  rw [dif_neg (by simp)]

/-- On the column axis the window coordinate of the update (e, c) is c. -/
theorem scat_window1 (e : Fin E) (c : Fin C) : (Cert.LibRows.scatDims wfS).window (ix2 e c) 1 = c.val := by
  unfold ScatterDims.window
  rw [dif_pos (by simp [ScatterDims.sKept, Shape.kept, List.finRange])]
  rfl

/-- The update (e, c') lands on the entry (h, c) exactly when the edge's word reads, signed, as h, and c' = c. -/
theorem row_lands (idx : IVec ⟨2, ![E, 1]⟩ w) (e : Fin E) (c' : Fin C) (h : Fin N) (c : Fin C) :
    (Cert.LibRows.scatDims wfS).resultIdx? (ix2 e c') idx = some (ix2 h c)
      ↔ (idx (ix2 e 0)).toInt = (h.val : Int) ∧ c' = c := by
  rw [Cert.Sage.resultIdx?_eq_some_iff]
  constructor
  · intro hh
    have h0 := hh 0
    have h1 := hh 1
    rw [Cert.LibRows.scat_start0, Cert.LibRows.scat_window0, Nat.cast_zero, add_zero] at h0
    rw [scat_start1, scat_window1, zero_add] at h1
    refine ⟨h0, Fin.ext ?_⟩
    have h1' : (c'.val : Int) = (c.val : Int) := h1
    exact_mod_cast h1'
  · rintro ⟨h0, rfl⟩ a
    match a with
    | ⟨0, _⟩ =>
      show ScatterDims.start _ (ix2 e c') idx 0 + ((ScatterDims.window _ (ix2 e c') 0 : ℕ) : Int) = _
      rw [Cert.LibRows.scat_start0, Cert.LibRows.scat_window0, h0]; simp
    | ⟨1, _⟩ =>
      show ScatterDims.start _ (ix2 e c') idx 1 + ((ScatterDims.window _ (ix2 e c') 1 : ℕ) : Int) = _
      rw [scat_start1, scat_window1]; simp

/-- THE ACCUMULATING SCATTER OF ROWS AT AN ENTRY: the operand's entry plus, over the edges whose word reads as the
    entry's row, the update's entry in the same column. -/
theorem rowScatter_apply (x : (⟨2, ![N, C]⟩ : Shape).Idx → EReal) (idx : IVec ⟨2, ![E, 1]⟩ w)
    (U : (⟨2, ![E, C]⟩ : Shape).Idx → EReal) (h : Fin N) (c : Fin C) :
    Ideal.hostScatterAdd (Cert.LibRows.scatDims wfS) x idx U (ix2 h c)
      = x (ix2 h c) + ∑ e : Fin E, if (idx (ix2 e 0)).toInt = (h.val : Int) then U (ix2 e c) else 0 := by
  unfold Ideal.hostScatterAdd
  congr 1
  rw [Finset.sum_filter, sum_idx2]
  refine Finset.sum_congr rfl fun e _ => ?_
  rw [Finset.sum_congr rfl (fun c' _ => if_congr (row_lands wfS idx e c' h c) rfl rfl)]
  by_cases hP : (idx (ix2 e 0)).toInt = (h.val : Int)
  · simp only [hP, true_and, if_true]
    exact Finset.sum_ite_eq' Finset.univ c (fun c' => U (ix2 e c')) |>.trans (by simp)
  · simp only [hP, false_and, if_false]
    exact Finset.sum_const_zero
end RowScatter

end Cert.LibSegment

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KHostTerms.lean ====
/-
  The host operations between the kernel regions, as pure terms read at an entry.

  Between two regions the program gathers one row of the previous region's output per edge, at the edge's source
  word (negative values wrapped by the node count, the result read signed and clamped to the last node), widens
  the rows' float format (the identity on extended reals), and adds each edge's row into the row of a zero array
  that the edge's destination word names (read signed; a word that names no node lands nowhere). Read at an entry
  `(j, k)` the result is the sum, over the edges whose destination word reads as `j`, of entry `k` of the gathered
  row. Beside that the node scales are reshaped into a column and each bias into a one-row matrix.
-/
import proofs.«155907_j6236292514024_2_alg».proof.KernelIdeal
import proofs.«155907_j6236292514024_2_alg».proof.Proof.Gen.KernelIdeal
import proofs.«155907_j6236292514024_2_alg».proof.Proof.LibRows
import proofs.«155907_j6236292514024_2_alg».proof.Proof.LibSegment
import proofs.«155907_j6236292514024_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.HostTerms

open Cert.KernelIdeal Cert.KernelIdeal.Gen
open Idealize.ShloMosaic Idealize.ShloMosaic.ValueIdx

/-- One word per edge carried with a trailing unit axis, as it is: what a scatter reads. -/
def rawIdx (w : IVec S850000 32) : IVec S850000x1 32 := broadcastInDim S850000x1 ![0] bcast_S850000_S850000x1_0 w

/-- One word per edge carried with a trailing unit axis, negative values wrapped by the node count: what a gather reads. -/
def wrapIdx (w : IVec S850000 32) : IVec S850000x1 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)

/-- The node an edge's wrapped word names for a gather. -/
def gRow (idx : IVec S850000x1 32) (e : Fin 850000) : Fin 50000 :=
  ⟨Cert.LibRows.clampRow 50000 (idx (ix2 e (0 : Fin 1))), Cert.LibRows.clampRow_lt (by decide) _⟩

/-- Rows of 128 entries gathered at the source words and summed per destination word. -/
def agg128 (h : FVec Ideal S50000x128 .bf16) (srcW dstW : IVec S850000 32) : FVec Ideal S50000x128 .f32 :=
  Host.scatterAdd scatter_S50000x128_S850000x1_S850000x128_1_0_0_1
    (broadcastInDim S50000x128 ![] bcast_S_S50000x128 (constant S_ .f32 0x00000000#32))
    (rawIdx dstW)
    (extf .f32 (Host.gather gather_S50000x128_S850000x1_S850000x128_1_0_n_n_0_1_1128 h (wrapIdx srcW)) bitsLt_bf16_f32)

/-- Rows of 40 entries gathered at the source words and summed per destination word. -/
def agg40 (h : FVec Ideal S50000x40 .bf16) (srcW dstW : IVec S850000 32) : FVec Ideal S50000x40 .f32 :=
  Host.scatterAdd scatter_S50000x40_S850000x1_S850000x40_1_0_0_1
    (broadcastInDim S50000x40 ![] bcast_S_S50000x40 (constant S_ .f32 0x00000000#32))
    (rawIdx dstW)
    (extf .f32 (Host.gather gather_S50000x40_S850000x1_S850000x40_1_0_n_n_0_1_140 h (wrapIdx srcW)) bitsLt_bf16_f32)

/-- The zero array's entry. -/
theorem zeros128_apply (i : S50000x128.Idx) :
    broadcastInDim S50000x128 ![] bcast_S_S50000x128 (constant (F := Ideal) S_ .f32 0x00000000#32) i = 0 := by
  rw [broadcastInDim_apply _ bcast_S_S50000x128 _ i (fun a => a.elim0) (fun a => a.elim0), constant_apply, Ideal.ofBits_zero_f32]

theorem zeros40_apply (i : S50000x40.Idx) :
    broadcastInDim S50000x40 ![] bcast_S_S50000x40 (constant (F := Ideal) S_ .f32 0x00000000#32) i = 0 := by
  rw [broadcastInDim_apply _ bcast_S_S50000x40 _ i (fun a => a.elim0) (fun a => a.elim0), constant_apply, Ideal.ofBits_zero_f32]

/-- The node scales as a column: entry `(j, 0)` is node `j`'s scale. -/
theorem col_apply (v : FVec Ideal S50000 .f32) (j : Fin 50000) :
    shapeCast S50000x1 v shapeCasts_S50000_S50000x1 (ix2 j (0 : Fin 1)) = v (ix1 j) :=
  Cert.LibColumn.shapeCast_a_a1_apply v shapeCasts_S50000_S50000x1 j 0

/-- A bias as a one-row matrix: entry `(0, k)` is the bias' entry `k`. -/
theorem row128_apply (b : FVec Ideal S128 .f32) (k : Fin 128) :
    shapeCast S1x128 b shapeCasts_S128_S1x128 (ix2 (0 : Fin 1) k) = b (ix1 k) :=
  shapeCast_apply b shapeCasts_S128_S1x128 _ _ (by
    rw [Shape.rowMajor_val_two, Shape.rowMajor_val_one]; show k.val = 0 * 128 + k.val; omega)

theorem row40_apply (b : FVec Ideal S40 .f32) (g : Fin 40) :
    shapeCast S1x40 b shapeCasts_S40_S1x40 (ix2 (0 : Fin 1) g) = b (ix1 g) :=
  shapeCast_apply b shapeCasts_S40_S1x40 _ _ (by
    rw [Shape.rowMajor_val_two, Shape.rowMajor_val_one]; show g.val = 0 * 40 + g.val; omega)

end Cert.KernelIdeal.HostTerms

end
-- ==== Proof.KStretch.lean ====
/-
  What each stretch of host operations of the kernel program leaves in the buffers the regions read.

  The program's host side is five stretches: the edge words, the self loops, the degree count and the node scales
  (three stretches before the first region), then, between the regions, a gather of rows, their sum per destination
  and the reshape of a bias (twice). A stretch is a list of operations, each a pure function of buffers written before
  it; what a buffer holds after the stretch is therefore a pure term of what the stretch's inputs held before it,
  and a buffer no operation of the stretch writes holds what it held.
-/
import proofs.«155907_j6236292514024_2_alg».proof.Proof.Gen.KernelIdeal.Launch
import proofs.«155907_j6236292514024_2_alg».proof.Proof.KHostTerms
import Idealize.ShloMosaic.Lib.StableHlo.Run

set_option maxRecDepth 16384

noncomputable section

namespace Cert.KernelIdeal.Stretch

open Cert.KernelIdeal Cert.KernelIdeal.Gen Cert.KernelIdeal.HostTerms
open Idealize.ShloMosaic Idealize.ShloMosaic.TcCoe Idealize.ShloMosaic.StableHlo Idealize.SL.Sem

/-- The source words with the self loops appended: row 0 of the edge index array, then every node's number. -/
def srcWords (ei : IVec S2x800000 32) : IVec S850000 32 :=
  concatenate S850000 0 [⟨S800000, shapeCast S800000 (extractStridedSlice S1x800000 ![0, 0] ei slices_S2x800000_S1x800000_0_0)
    shapeCasts_S1x800000_S800000⟩, ⟨S50000, iotaInDim S50000 32 0⟩] concatenates_S800000_S50000_S850000_d0

/-- The destination words with the self loops appended: row 1 of the edge index array, then every node's number. -/
def dstWords (ei : IVec S2x800000 32) : IVec S850000 32 :=
  concatenate S850000 0 [⟨S800000, shapeCast S800000 (extractStridedSlice S1x800000 ![1, 0] ei slices_S2x800000_S1x800000_1_0)
    shapeCasts_S1x800000_S800000⟩, ⟨S50000, iotaInDim S50000 32 0⟩] concatenates_S800000_S50000_S850000_d0

/-- Every node's degree: one added per edge whose destination word reads as the node. -/
def degOf (ei : IVec S2x800000 32) : FVec Ideal S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (dstWords ei))
    (broadcastInDim S850000 ![] bcast_S_S850000 (constant S_ .f32 0x3F800000#32))

/-- Every node's scale: the inverse square root of its degree where the degree is positive, zero elsewhere. -/
def scaleOf (ei : IVec S2x800000 32) : FVec Ideal S50000 .f32 :=
  select (cmpf .ogt (degOf ei) (broadcastInDim S50000 ![] bcast_S_S50000 (constant S_ .f32 0x00000000#32)))
    (Host.rsqrt (degOf ei)) (broadcastInDim S50000 ![] bcast_S_S50000 (constant S_ .f32 0x00000000#32))

variable (W : Valuation τ sig (Elt Ideal))

/-! ## The first stretch: edge words, degrees, the scale's two branches -/

theorem a0_v5 : after (hostOps0 (F := Ideal)) W (Proc.devRef .tc main_v5) = srcWords (W (Proc.devRef .tc main_arg1)) := by
  after_results <;> rfl
theorem a0_v6 : after (hostOps0 (F := Ideal)) W (Proc.devRef .tc main_v6) = dstWords (W (Proc.devRef .tc main_arg1)) := by
  after_results <;> rfl
theorem a0_v12 : after (hostOps0 (F := Ideal)) W (Proc.devRef .tc main_v12)
    = cmpf .ogt (degOf (W (Proc.devRef .tc main_arg1))) (broadcastInDim S50000 ![] bcast_S_S50000 (constant S_ .f32 0x00000000#32)) := by
  after_results <;> rfl
theorem a0_v13 : after (hostOps0 (F := Ideal)) W (Proc.devRef .tc main_v13) = Host.rsqrt (degOf (W (Proc.devRef .tc main_arg1))) := by
  after_results <;> rfl
theorem a0_cst2 : after (hostOps0 (F := Ideal)) W (Proc.devRef .tc main_cst_2) = constant (F := Ideal) S_ .f32 0x00000000#32 := by
  after_results <;> rfl
theorem a0_arg0 : after (hostOps0 (F := Ideal)) W (Proc.devRef .tc main_arg0) = W (Proc.devRef .tc main_arg0) := by after_results <;> rfl
theorem a0_arg2 : after (hostOps0 (F := Ideal)) W (Proc.devRef .tc main_arg2) = W (Proc.devRef .tc main_arg2) := by after_results <;> rfl
theorem a0_arg3 : after (hostOps0 (F := Ideal)) W (Proc.devRef .tc main_arg3) = W (Proc.devRef .tc main_arg3) := by after_results <;> rfl
theorem a0_arg4 : after (hostOps0 (F := Ideal)) W (Proc.devRef .tc main_arg4) = W (Proc.devRef .tc main_arg4) := by after_results <;> rfl
theorem a0_arg5 : after (hostOps0 (F := Ideal)) W (Proc.devRef .tc main_arg5) = W (Proc.devRef .tc main_arg5) := by after_results <;> rfl

/-! ## The second stretch: the choice between the scale's branches -/

theorem a1_v14 : after (hostOps0_1 (F := Ideal)) W (Proc.devRef .tc main_v14)
    = select (W (Proc.devRef .tc main_v12)) (W (Proc.devRef .tc main_v13))
        (broadcastInDim S50000 ![] bcast_S_S50000 (W (Proc.devRef .tc main_cst_2))) := by
  after_results <;> rfl
theorem a1_v5 : after (hostOps0_1 (F := Ideal)) W (Proc.devRef .tc main_v5) = W (Proc.devRef .tc main_v5) := by after_results <;> rfl
theorem a1_v6 : after (hostOps0_1 (F := Ideal)) W (Proc.devRef .tc main_v6) = W (Proc.devRef .tc main_v6) := by after_results <;> rfl
theorem a1_arg0 : after (hostOps0_1 (F := Ideal)) W (Proc.devRef .tc main_arg0) = W (Proc.devRef .tc main_arg0) := by after_results <;> rfl
theorem a1_arg2 : after (hostOps0_1 (F := Ideal)) W (Proc.devRef .tc main_arg2) = W (Proc.devRef .tc main_arg2) := by after_results <;> rfl
theorem a1_arg3 : after (hostOps0_1 (F := Ideal)) W (Proc.devRef .tc main_arg3) = W (Proc.devRef .tc main_arg3) := by after_results <;> rfl
theorem a1_arg4 : after (hostOps0_1 (F := Ideal)) W (Proc.devRef .tc main_arg4) = W (Proc.devRef .tc main_arg4) := by after_results <;> rfl
theorem a1_arg5 : after (hostOps0_1 (F := Ideal)) W (Proc.devRef .tc main_arg5) = W (Proc.devRef .tc main_arg5) := by after_results <;> rfl

/-! ## The third stretch: the scales as a column -/

theorem a2_v15 : after (hostOps0_2 (F := Ideal)) W (Proc.devRef .tc main_v15)
    = shapeCast S50000x1 (W (Proc.devRef .tc main_v14)) shapeCasts_S50000_S50000x1 := by
  after_results <;> rfl
theorem a2_v5 : after (hostOps0_2 (F := Ideal)) W (Proc.devRef .tc main_v5) = W (Proc.devRef .tc main_v5) := by after_results <;> rfl
theorem a2_v6 : after (hostOps0_2 (F := Ideal)) W (Proc.devRef .tc main_v6) = W (Proc.devRef .tc main_v6) := by after_results <;> rfl
theorem a2_arg0 : after (hostOps0_2 (F := Ideal)) W (Proc.devRef .tc main_arg0) = W (Proc.devRef .tc main_arg0) := by after_results <;> rfl
theorem a2_arg2 : after (hostOps0_2 (F := Ideal)) W (Proc.devRef .tc main_arg2) = W (Proc.devRef .tc main_arg2) := by after_results <;> rfl
theorem a2_arg3 : after (hostOps0_2 (F := Ideal)) W (Proc.devRef .tc main_arg3) = W (Proc.devRef .tc main_arg3) := by after_results <;> rfl
theorem a2_arg4 : after (hostOps0_2 (F := Ideal)) W (Proc.devRef .tc main_arg4) = W (Proc.devRef .tc main_arg4) := by after_results <;> rfl
theorem a2_arg5 : after (hostOps0_2 (F := Ideal)) W (Proc.devRef .tc main_arg5) = W (Proc.devRef .tc main_arg5) := by after_results <;> rfl

/-! ## The stretch after the first region: the first aggregate and the first bias -/

theorem b_v27 : after (hostOps1 (F := Ideal)) W (Proc.devRef .tc main_v27)
    = agg128 (W (Proc.devRef .tc main_v16)) (W (Proc.devRef .tc main_v5)) (W (Proc.devRef .tc main_v6)) := by
  after_results <;> rfl
theorem b_v28 : after (hostOps1 (F := Ideal)) W (Proc.devRef .tc main_v28)
    = shapeCast S1x128 (W (Proc.devRef .tc main_arg3)) shapeCasts_S128_S1x128 := by
  after_results <;> rfl
theorem b_v15 : after (hostOps1 (F := Ideal)) W (Proc.devRef .tc main_v15) = W (Proc.devRef .tc main_v15) := by after_results <;> rfl
theorem b_v5 : after (hostOps1 (F := Ideal)) W (Proc.devRef .tc main_v5) = W (Proc.devRef .tc main_v5) := by after_results <;> rfl
theorem b_v6 : after (hostOps1 (F := Ideal)) W (Proc.devRef .tc main_v6) = W (Proc.devRef .tc main_v6) := by after_results <;> rfl
theorem b_arg4 : after (hostOps1 (F := Ideal)) W (Proc.devRef .tc main_arg4) = W (Proc.devRef .tc main_arg4) := by after_results <;> rfl
theorem b_arg5 : after (hostOps1 (F := Ideal)) W (Proc.devRef .tc main_arg5) = W (Proc.devRef .tc main_arg5) := by after_results <;> rfl

/-! ## The stretch after the second region: the second aggregate and the second bias -/

theorem c_v40 : after (hostOps2 (F := Ideal)) W (Proc.devRef .tc main_v40)
    = agg40 (W (Proc.devRef .tc main_v29)) (W (Proc.devRef .tc main_v5)) (W (Proc.devRef .tc main_v6)) := by
  after_results <;> rfl
theorem c_v41 : after (hostOps2 (F := Ideal)) W (Proc.devRef .tc main_v41)
    = shapeCast S1x40 (W (Proc.devRef .tc main_arg5)) shapeCasts_S40_S1x40 := by
  after_results <;> rfl
theorem c_v15 : after (hostOps2 (F := Ideal)) W (Proc.devRef .tc main_v15) = W (Proc.devRef .tc main_v15) := by after_results <;> rfl

end Cert.KernelIdeal.Stretch

end
-- ==== Proof.LibGraphConv.lean ====
/-
  A two-layer graph convolution with symmetric normalization, entry by entry over the extended reals, in two
  arrangements, and the proof that they are one function.

  The graph is given abstractly: `E` edges over `N` nodes, a source node `src e` per edge, a relation `L e j`
  ("edge `e` lands on node `j`": its destination word names `j`), and a second reading `dst e` of the destination
  as a node, which agrees with the first whenever the edge lands anywhere (`L e j → dst e = j`). Every node has a
  scale `d j`, the inverse square root of its degree, or zero: a nonnegative extended real that is not `+∞`.

  One layer sends node features `h` to `j ↦ ∑_{e lands on j} h (src e) · (d (src e) · d (dst e))`.
  * The first arrangement multiplies each edge's message by the edge's weight `d (src e) · d (dst e)`.
  * The second scales the features by `d` before they are gathered, sums the raw messages, and scales the sum by
    `d j` afterwards.
  They agree because multiplication of extended reals is associative and commutative, and because a factor that is
  nonnegative and not `+∞` distributes over any sum of extended reals (`+∞ + -∞ = -∞` on both sides of the law, and
  a zero factor makes both sides zero). No finiteness of the features is used.

  Around the layers both arrangements apply the same entrywise functions: a bias, the rectifier, a dense layer, and
  at the end the logarithm of the softmax along each row, `z f - M - log ∑_g exp (z g - M)` with `M` the row's
  maximum taken from `-∞`; taking the maximum of `-∞` and `M` once more changes nothing.
-/
import Idealize.ShloMosaic.PureOps.Ideal
import Idealize.ShloMosaic.PureOps.Ideal.Laws
import Mathlib.Data.EReal.Operations

noncomputable section

open scoped BigOperators

namespace Cert.GraphConv

open Idealize.ShloMosaic

/-! ## A factor that distributes over sums -/

/-- A nonnegative extended real other than `+∞`. -/
def Scale (d : EReal) : Prop := 0 ≤ d ∧ d ≠ ⊤

theorem scale_zero : Scale 0 := ⟨le_refl _, EReal.zero_ne_top⟩

theorem scale_coe {r : ℝ} (hr : 0 ≤ r) : Scale (r : EReal) := ⟨by exact_mod_cast hr, EReal.coe_ne_top r⟩

/-- Such a factor distributes over a finite sum of extended reals, whatever the terms. -/
theorem sum_mul_scale {ι : Type*} (s : Finset ι) (a : ι → EReal) {d : EReal} (hd : Scale d) :
    (∑ i ∈ s, a i) * d = ∑ i ∈ s, a i * d := by
  classical
  induction s using Finset.induction_on with
  | empty => simp
  | insert i s hi ih =>
    rw [Finset.sum_insert hi, Finset.sum_insert hi, EReal.right_distrib_of_nonneg_of_ne_top hd.1 hd.2, ih]

/-- The same for a sum over the indices selected by a predicate, the others contributing zero. -/
theorem sum_ite_mul_scale {ι : Type*} [Fintype ι] (P : ι → Prop) [DecidablePred P] (a : ι → EReal) {d : EReal}
    (hd : Scale d) : (∑ i, if P i then a i else 0) * d = ∑ i, if P i then a i * d else 0 := by
  rw [sum_mul_scale _ _ hd]
  refine Finset.sum_congr rfl fun i _ => ?_
  split
  · rfl
  · exact zero_mul d

/-- The inverse square root of a positive extended real is such a factor: `+∞ ↦ 0`, a positive real `r ↦ 1/√r`. -/
theorem scale_rsqrt {x : EReal} (hx : 0 < x) : Scale (Ideal.rsqrt x) := by
  induction x using EReal.rec with
  | bot => exact absurd hx (by simp)
  | top => rw [Ideal.rsqrt_top]; exact scale_zero
  | coe r =>
    have hr : 0 < r := by exact_mod_cast hx
    rw [Ideal.rsqrt_coe, if_neg (not_lt.mpr hr.le), if_neg hr.ne']
    exact scale_coe (inv_nonneg.mpr (Real.sqrt_nonneg r))

/-- A node's scale: the inverse square root of its degree where the degree is positive, zero elsewhere. -/
theorem scale_guarded (x : EReal) : Scale (if 0 < x then Ideal.rsqrt x else 0) := by
  split
  · rename_i h; exact scale_rsqrt h
  · exact scale_zero

/-! ## The row functions -/

/-- The maximum of a row, taken from `-∞`. -/
def rowMax {C : ℕ} (z : Fin C → EReal) : EReal :=
  (Finset.univ : Finset (Fin C)).fold max (Ideal.ofBits .f32 0xFF800000#32) z

/-- Starting once more from `-∞` changes nothing: the maximum is already above its starting value. -/
theorem max_start_rowMax {C : ℕ} (z : Fin C → EReal) : max (Ideal.ofBits .f32 0xFF800000#32) (rowMax z) = rowMax z :=
  max_eq_right (Finset.le_fold_max _ |>.mpr (Or.inl (le_refl _)))

/-- The logarithm of the softmax along a row. -/
def logSoftmax {C : ℕ} (z : Fin C → EReal) (f : Fin C) : EReal :=
  (z f - rowMax z) - Ideal.log (∑ g : Fin C, Ideal.exp (z g - rowMax z))

/-- A dense layer's entry: the inner product of a row with a column of the weights. -/
def lin {K C : ℕ} (a : Fin K → EReal) (W : Fin K → Fin C → EReal) (f : Fin C) : EReal := ∑ k : Fin K, a k * W k f

/-! ## The network, in two arrangements -/

section Net
variable {N E : ℕ} (d : Fin N → EReal) (src dst : Fin E → Fin N) (L : Fin E → Fin N → Prop) [∀ e j, Decidable (L e j)]
variable {K0 K1 K2 : ℕ} (x : Fin N → Fin K0 → EReal) (W1 : Fin K0 → Fin K1 → EReal) (b1 : Fin K1 → EReal)
  (W2 : Fin K1 → Fin K2 → EReal) (b2 : Fin K2 → EReal)

/-- The sum over the edges that land on `j` of a per-edge value. -/
def nbr (u : Fin E → EReal) (j : Fin N) : EReal := ∑ e : Fin E, if L e j then u e else 0

/-! ### Scaling the features before the gather and the sum after it -/

def hid1S (i : Fin N) (f : Fin K1) : EReal := lin (x i) W1 f * d i
def agg1S (j : Fin N) (f : Fin K1) : EReal := nbr L (fun e => hid1S d x W1 (src e) f) j
def act1S (j : Fin N) (k : Fin K1) : EReal := max (agg1S d src L x W1 j k * d j + b1 k) 0
def hid2S (j : Fin N) (f : Fin K2) : EReal := lin (act1S d src L x W1 b1 j) W2 f * d j
def agg2S (j : Fin N) (f : Fin K2) : EReal := nbr L (fun e => hid2S d src L x W1 b1 W2 (src e) f) j
def outS (j : Fin N) (f : Fin K2) : EReal :=
  logSoftmax (fun g => agg2S d src L x W1 b1 W2 j g * d j + b2 g) f

/-! ### Weighting each edge's message -/

def hid1W (i : Fin N) (f : Fin K1) : EReal := lin (x i) W1 f
def agg1W (j : Fin N) (f : Fin K1) : EReal := nbr L (fun e => hid1W x W1 (src e) f * (d (src e) * d (dst e))) j
def act1W (j : Fin N) (k : Fin K1) : EReal := max (agg1W d src dst L x W1 j k + b1 k) 0
def hid2W (j : Fin N) (f : Fin K2) : EReal := lin (act1W d src dst L x W1 b1 j) W2 f
def agg2W (j : Fin N) (f : Fin K2) : EReal :=
  nbr L (fun e => hid2W d src dst L x W1 b1 W2 (src e) f * (d (src e) * d (dst e))) j
def outW (j : Fin N) (f : Fin K2) : EReal :=
  (fun g => agg2W d src dst L x W1 b1 W2 j g + b2 g) f - max (Ideal.ofBits .f32 0xFF800000#32)
      (rowMax fun g => agg2W d src dst L x W1 b1 W2 j g + b2 g)
    - Ideal.log (∑ g : Fin K2, Ideal.exp ((agg2W d src dst L x W1 b1 W2 j g + b2 g)
        - max (Ideal.ofBits .f32 0xFF800000#32) (rowMax fun g => agg2W d src dst L x W1 b1 W2 j g + b2 g)))

/-! ### They agree -/

variable (hd : ∀ j, Scale (d j)) (hdst : ∀ e j, L e j → dst e = j)
include hd hdst

/-- One layer: weighting the messages is scaling before the gather and after the sum. -/
theorem nbr_weighted (h : Fin N → EReal) (j : Fin N) :
    nbr L (fun e => h (src e) * (d (src e) * d (dst e))) j = nbr L (fun e => h (src e) * d (src e)) j * d j := by
  unfold nbr
  rw [sum_ite_mul_scale _ _ (hd j)]
  refine Finset.sum_congr rfl fun e _ => ?_
  beta_reduce
  split
  · rename_i hl; rw [hdst e j hl, mul_assoc]
  · rfl

theorem agg1W_eq (j : Fin N) (f : Fin K1) : agg1W d src dst L x W1 j f = agg1S d src L x W1 j f * d j :=
  nbr_weighted d src dst L hd hdst (fun i => hid1W x W1 i f) j

theorem act1W_eq (j : Fin N) : act1W d src dst L x W1 b1 j = act1S d src L x W1 b1 j := by
  funext k; unfold act1W act1S; rw [agg1W_eq d src dst L x W1 hd hdst]

theorem agg2W_eq (j : Fin N) (f : Fin K2) :
    agg2W d src dst L x W1 b1 W2 j f = agg2S d src L x W1 b1 W2 j f * d j := by
  unfold agg2W agg2S
  rw [nbr_weighted d src dst L hd hdst (fun i => hid2W d src dst L x W1 b1 W2 i f) j]
  unfold hid2W hid2S
  simp only [act1W_eq d src dst L x W1 b1 hd hdst]

/-- THE TWO ARRANGEMENTS ARE ONE FUNCTION. -/
theorem outW_eq_outS (j : Fin N) (f : Fin K2) :
    outW d src dst L x W1 b1 W2 b2 j f = outS d src L x W1 b1 W2 b2 j f := by
  unfold outW outS logSoftmax
  simp only [max_start_rowMax, agg2W_eq d src dst L x W1 b1 W2 hd hdst]

end Net

end Cert.GraphConv

end
-- ==== Proof.KBodies.lean ====
/-
  The three kernel bodies as arithmetic: what each stores, entry by entry, from the blocks it loads.

  Every body loads whole blocks, computes with whole-block vector operations and stores one whole block; changes of
  float format are the identity on extended reals, a matrix product into a zero accumulator is the plain sum of
  products, a column kept with a trailing unit axis is spread along each row, and a one-row bias is spread down the
  rows. So each stored entry `(p, q)` depends on row `p` of the row-blocked operands only:
  * the first body stores `(∑ k, x (p, k) · W (k, q)) · s (p)`;
  * the second stores `(∑ k, max (a (p, k) · s (p) + b (k)) 0 · W (k, q)) · s (p)`;
  * the third stores the logarithm of the softmax along row `p` of `z (p, g) = a (p, g) · s (p) + b (g)`, the row's
    maximum taken from `-∞` and the row's sum of exponentials from zero.
-/
import proofs.«155907_j6236292514024_2_alg».proof.Proof.Gen.KernelIdeal.Skeleton
import proofs.«155907_j6236292514024_2_alg».proof.Proof.LibGraphConv
import proofs.«155907_j6236292514024_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The two matrix products

A product into a zero accumulator is the plain sum of products over the contracted axis; the contraction index, a
one-coordinate tuple, is re-indexed by its coordinate. -/

theorem matmul_128_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem matmul_128_lhs1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c

theorem matmul_128_rhs0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c

theorem matmul_128_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A `[5000,128] × [128,128]` product into a zero accumulator, read at `(p, q)`: the sum over the shared axis. -/
theorem matmul_128_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact matmul_128_lhs0 _ _
      | ⟨1, _⟩ => exact (matmul_128_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (matmul_128_rhs0 _ _).trans hk
      | ⟨1, _⟩ => exact matmul_128_rhs1 _ _)
  rw [el, er]

theorem matmul_40_lhs0 (i : S5000x40.Idx) (c : dot_S5000x128_S128x40_S5000x40_1_0_0_1_n_n.contr.Idx) : (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem matmul_40_lhs1 (i : S5000x40.Idx) (c : dot_S5000x128_S128x40_S5000x40_1_0_0_1_n_n.contr.Idx) : (dot_S5000x128_S128x40_S5000x40_1_0_0_1_n_n.lhsIdx i c 1).val = (c ⟨0, by decide⟩).val :=
  dot_S5000x128_S128x40_S5000x40_1_0_0_1_n_n.lhsIdx_val_of_single rfl i c

theorem matmul_40_rhs0 (i : S5000x40.Idx) (c : dot_S5000x128_S128x40_S5000x40_1_0_0_1_n_n.contr.Idx) : (dot_S5000x128_S128x40_S5000x40_1_0_0_1_n_n.rhsIdx i c 0).val = (c ⟨0, by decide⟩).val :=
  dot_S5000x128_S128x40_S5000x40_1_0_0_1_n_n.rhsIdx_val_of_single rfl i c

theorem matmul_40_rhs1 (i : S5000x40.Idx) (c : dot_S5000x128_S128x40_S5000x40_1_0_0_1_n_n.contr.Idx) : (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- A `[5000,128] × [128,40]` product into a zero accumulator, read at `(p, q)`: the sum over the shared axis. -/
theorem matmul_40_apply (a : FVec Ideal S5000x128 .bf16) (b : FVec Ideal S128x40 .bf16) (p : Fin 5000) (q : Fin 40) :
    matmul (F := Ideal) dot_S5000x128_S128x40_S5000x40_1_0_0_1_n_n none a b (constant (F := Ideal) S5000x40 .f32 0x00000000#32) (ix2 p q)
      = ∑ k : Fin 128, a (ix2 p k) * b (ix2 k q) := by
  refine (Ideal.matmul_constant_zero_apply dot_S5000x128_S128x40_S5000x40_1_0_0_1_n_n none a b (ix2 p q)).trans ?_
  rw [← Equiv.sum_comp (contrEquiv1 dot_S5000x128_S128x40_S5000x40_1_0_0_1_n_n 128 rfl rfl).symm]
  refine Finset.sum_congr rfl fun k _ => ?_
  have hk := contrEquiv1_symm_val dot_S5000x128_S128x40_S5000x40_1_0_0_1_n_n 128 rfl rfl k
  have el : dot_S5000x128_S128x40_S5000x40_1_0_0_1_n_n.lhsIdx (ix2 p q) ((contrEquiv1 dot_S5000x128_S128x40_S5000x40_1_0_0_1_n_n 128 rfl rfl).symm k) = ix2 p k :=
    funext fun ax => Fin.ext (by
      match ax with
      | ⟨0, _⟩ => exact matmul_40_lhs0 _ _
      | ⟨1, _⟩ => exact (matmul_40_lhs1 _ _).trans hk)
  have er : dot_S5000x128_S128x40_S5000x40_1_0_0_1_n_n.rhsIdx (ix2 p q) ((contrEquiv1 dot_S5000x128_S128x40_S5000x40_1_0_0_1_n_n 128 rfl rfl).symm k) = ix2 k q :=
    funext fun ax => Fin.ext (by
      match ax with
      | ⟨0, _⟩ => exact (matmul_40_rhs0 _ _).trans hk
      | ⟨1, _⟩ => exact matmul_40_rhs1 _ _)
  rw [el, er]

/-! ## The row statistics of the third body

A reduction along axis 1 of a `[5000, 40]` array, read at row `p`, ranges over the entries `(p, g)`; its result is kept
as a `[5000, 1]` column and spread back along each row. -/

/-- The index over row `p` whose coordinate on the reduced axis is `g` is `(p, g)`. -/
theorem lift_row (p : Fin 5000) (g : Fin 40) : reduces_S5000x40_S5000.lift (ix1 p) g = ix2 p g :=
  funext fun ax => Fin.ext (by
    match ax with
    | ⟨0, _⟩ => rfl
    | ⟨1, _⟩ => rfl)

/-- The row maximum taken from `-∞`, kept as a column and spread along the row: at `(p, c)` it is the maximum of row `p`. -/
theorem rowMax_col_apply (y : FVec Ideal S5000x40 .f32) (p : Fin 5000) (c : Fin 40) :
    (broadcastTo S5000x40
          (shapeCast S5000x1
            (multiReduction (F := Ideal) .maximumf [1] S5000 y 0xFF800000#32 reduces_S5000x40_S5000 (.inl rfl) rfl)
            shapeCasts_S5000_S5000x1)
          broadcasts_S5000x1_S5000x40) (ix2 p c)
      = Cert.GraphConv.rowMax fun g : Fin 40 => y (ix2 p g) := by
  refine (Cert.LibColumn.broadcastTo_a1_ab_apply _ _ p c).trans ?_
  refine (Cert.LibColumn.shapeCast_a_a1_apply _ _ p (0 : Fin 1)).trans ?_
  refine (Ideal.multiReduction_maximumf_single y 0xFF800000#32 reduces_S5000x40_S5000 _ _ (ix1 p)).trans ?_
  have e : (y ∘ reduces_S5000x40_S5000.lift (ix1 p)) = fun g : Fin 40 => y (ix2 p g) :=
    funext fun g => congrArg y (lift_row p g)
  exact congrArg (fun f => (Finset.univ : Finset (Fin 40)).fold max (Ideal.ofBits .f32 0xFF800000#32) f) e

/-- The logarithm of the row sum taken from zero, kept as a column and spread along the row: at `(p, c)` it is the
    logarithm of the sum of row `p`. -/
theorem log_rowSum_col_apply (w : FVec Ideal S5000x40 .f32) (p : Fin 5000) (c : Fin 40) :
    (broadcastTo S5000x40
          (log (shapeCast S5000x1
            (multiReduction (F := Ideal) .add [1] S5000 w 0x00000000#32 reduces_S5000x40_S5000 (.inl rfl) rfl)
            shapeCasts_S5000_S5000x1))
          broadcasts_S5000x1_S5000x40) (ix2 p c)
      = Ideal.log (∑ g : Fin 40, w (ix2 p g)) := by
  refine (Cert.LibColumn.broadcastTo_a1_ab_apply _ _ p c).trans ?_
  refine congrArg Ideal.log ?_
  refine (Cert.LibColumn.shapeCast_a_a1_apply _ _ p (0 : Fin 1)).trans ?_
  refine (Ideal.multiReduction_add_single w 0x00000000#32 reduces_S5000x40_S5000 _ _ (ix1 p)).trans ?_
  exact Finset.sum_congr rfl fun g _ => congrArg w (lift_row p g)

/-- The tail of the third body over any `[5000, 40]` array `y`: subtract the row maximum, then the logarithm of the row
    sum of the exponentials. At `(p, q)` it is the logarithm of the softmax of row `p`. -/
theorem logSoftmax_tail_apply (y : FVec Ideal S5000x40 .f32) (p : Fin 5000) (q : Fin 40) :
    subf
        (subf y (broadcastTo S5000x40
          (shapeCast S5000x1
            (multiReduction (F := Ideal) .maximumf [1] S5000 y 0xFF800000#32 reduces_S5000x40_S5000 (.inl rfl) rfl)
            shapeCasts_S5000_S5000x1)
          broadcasts_S5000x1_S5000x40))
        (broadcastTo S5000x40
          (log (shapeCast S5000x1
            (multiReduction (F := Ideal) .add [1] S5000
              (exp (subf y (broadcastTo S5000x40
          (shapeCast S5000x1
            (multiReduction (F := Ideal) .maximumf [1] S5000 y 0xFF800000#32 reduces_S5000x40_S5000 (.inl rfl) rfl)
            shapeCasts_S5000_S5000x1)
          broadcasts_S5000x1_S5000x40)))
              0x00000000#32 reduces_S5000x40_S5000 (.inl rfl) rfl)
            shapeCasts_S5000_S5000x1))
          broadcasts_S5000x1_S5000x40)
        (ix2 p q)
      = Cert.GraphConv.logSoftmax (fun g : Fin 40 => y (ix2 p g)) q := by
  refine (subf_apply _ _ (ix2 p q)).trans ?_
  unfold Cert.GraphConv.logSoftmax
  refine congrArg₂ (· - ·) ?_ ?_
  · refine (subf_apply _ _ (ix2 p q)).trans ?_
    exact congrArg (y (ix2 p q) - ·) (rowMax_col_apply y p q)
  · refine (log_rowSum_col_apply _ p q).trans ?_
    refine congrArg Ideal.log (Finset.sum_congr rfl fun g _ => ?_)
    refine congrArg Ideal.exp ?_
    refine (subf_apply _ _ (ix2 p g)).trans ?_
    exact congrArg (y (ix2 p g) - ·) (rowMax_col_apply y p g)

/-! ## The three bodies -/

/-- The first body's stored entry: row `p` of the features times column `q` of the weights, scaled by the row's scale. -/
theorem pay0_apply (v0 : Vec Ideal S5000x128 .f32) (v2 : Vec Ideal S128x128 .f32) (v5 : Vec Ideal S5000x1 .f32)
    (p : Fin 5000) (q : Fin 128) :
    k0_pay1 (F := Ideal) v0 v2 v5 (ix2 p q)
      = (∑ k : Fin 128, v0 (ix2 p k) * v2 (ix2 k q)) * v5 (ix2 p (0 : Fin 1)) := by
  unfold k0_pay1
  refine (truncf_apply (ψ := .bf16) _ bitsLt_bf16_f32 (ix2 p q)).trans ?_
  refine (mulf_apply _ _ (ix2 p q)).trans ?_
  refine congrArg₂ (· * ·) (matmul_128_apply _ _ p q) ?_
  refine (Cert.LibColumn.broadcastTo_a1_ab_apply _ _ p q).trans ?_
  rw [shapeCast_self]

/-- The second body's stored entry: the aggregated row scaled, biased and rectified, times column `q` of the weights,
    scaled by the row's scale again. -/
theorem pay1_apply (v0 : Vec Ideal S5000x1 .f32) (v2 : Vec Ideal S5000x128 .f32) (v6 : Vec Ideal S1x128 .f32)
    (v13 : Vec Ideal S128x40 .f32) (p : Fin 5000) (q : Fin 40) :
    k1_pay1 (F := Ideal) v0 v2 v6 v13 (ix2 p q)
      = (∑ k : Fin 128, max (v2 (ix2 p k) * v0 (ix2 p (0 : Fin 1)) + v6 (ix2 (0 : Fin 1) k)) 0 * v13 (ix2 k q))
          * v0 (ix2 p (0 : Fin 1)) := by
  unfold k1_pay1
  refine (truncf_apply (ψ := .bf16) _ bitsLt_bf16_f32 (ix2 p q)).trans ?_
  refine (mulf_apply _ _ (ix2 p q)).trans ?_
  refine congrArg₂ (· * ·) ((matmul_40_apply _ _ p q).trans ?_) ?_
  · refine Finset.sum_congr rfl fun k _ => ?_
    refine congrArg₂ (· * ·) ?_ rfl
    refine (truncf_apply (ψ := .bf16) _ bitsLt_bf16_f32 (ix2 p k)).trans ?_
    refine (maximumf_apply _ _ (ix2 p k)).trans ?_
    refine congrArg₂ max ?_ Ideal.ofBits_zero_f32
    refine (addf_apply _ _ (ix2 p k)).trans ?_
    refine congrArg₂ (· + ·) ?_ ?_
    · refine (mulf_apply _ _ (ix2 p k)).trans ?_
      refine congrArg₂ (· * ·) ?_ ?_
      · rw [shapeCast_self]
      · refine (Cert.LibColumn.broadcastTo_a1_ab_apply _ _ p k).trans ?_
        rw [shapeCast_self]
    · refine (broadcastTo_1b_ab_apply _ _ p k).trans ?_
      rw [shapeCast_self]
  · refine (Cert.LibColumn.broadcastTo_a1_ab_apply _ _ p q).trans ?_
    rw [shapeCast_self]

/-- The third body's stored entry: the logarithm of the softmax along the row. -/
theorem pay2_apply (v0 : Vec Ideal S5000x40 .f32) (v2 : Vec Ideal S5000x1 .f32) (v6 : Vec Ideal S1x40 .f32)
    (p : Fin 5000) (q : Fin 40) :
    k2_pay1 (F := Ideal) v0 v2 v6 (ix2 p q)
      = Cert.GraphConv.logSoftmax (fun g : Fin 40 => v0 (ix2 p g) * v2 (ix2 p (0 : Fin 1)) + v6 (ix2 (0 : Fin 1) g)) q := by
  unfold k2_pay1
  refine (logSoftmax_tail_apply _ p q).trans ?_
  refine congrArg (Cert.GraphConv.logSoftmax · q) (funext fun g => ?_)
  refine (addf_apply _ _ (ix2 p g)).trans ?_
  refine congrArg₂ (· + ·) ?_ ?_
  · refine (mulf_apply _ _ (ix2 p g)).trans ?_
    refine congrArg₂ (· * ·) ?_ ?_
    · rw [shapeCast_self]
    · refine (Cert.LibColumn.broadcastTo_a1_ab_apply _ _ p g).trans ?_
      rw [shapeCast_self]
  · refine (broadcastTo_1b_ab_apply _ _ p g).trans ?_
    rw [shapeCast_self]

end Cert.KernelIdeal.Body

end
-- ==== Proof.KBlock0.lean ====
/-
  The first region's output array as one function of the arrays the region finds.

  The region runs over ten grid points; point `t` loads rows `5000 t … 5000 t + 4999` of the node features and of
  the scale column, the whole weight matrix, and writes back the same rows of the output. The body's stored entry
  depends on its own row only, so the block a point writes back is the restriction to those rows of ONE function of
  the whole arrays,

      out (r, q) = (∑ k, x (r, k) · W (k, q)) · s (r),

  and the ten blocks tile the array: row `r` lies in the block of point `r / 5000`.
-/
import proofs.«155907_j6236292514024_2_alg».proof.Proof.Gen.KernelIdeal.Frame
import proofs.«155907_j6236292514024_2_alg».proof.Proof.KBodies
import Idealize.ShloMosaic.Lib.Pipeline.Value
import Idealize.ShloMosaic.Lib.ValueIdx

set_option maxRecDepth 16384

noncomputable section

open scoped BigOperators

namespace Cert.KernelIdeal.Val0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The scaled product, entry by entry: row `r` of the features against column `q` of the weights, times the row's scale. -/
def G0 (x : S50000x128.Idx → EReal) (W : S128x128.Idx → EReal) (s : S50000x1.Idx → EReal) : S50000x128.Idx → EReal :=
  fun i => (∑ k : Fin 128, x (ix2 (⟨(i 0).val, idx2_lt0 i⟩ : Fin 50000) k) * W (ix2 k (⟨(i 1).val, idx2_lt1 i⟩ : Fin 128)))
    * s (ix2 (⟨(i 0).val, idx2_lt0 i⟩ : Fin 50000) (0 : Fin 1))

theorem G0_apply (x : S50000x128.Idx → EReal) (W : S128x128.Idx → EReal) (s : S50000x1.Idx → EReal) (r : Fin 50000) (q : Fin 128) :
    G0 x W s (ix2 r q) = (∑ k : Fin 128, x (ix2 r k) * W (ix2 k q)) * s (ix2 r (0 : Fin 1)) := rfl

/-- The index maps over the grid: the row-blocked windows sit at block `t` of the rows, the weights at block zero. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt_ten (t : Fin cfg0.N) : t.val < 10 := lt_of_lt_of_eq t.isLt N_0

/-- Row `p` of point `t`'s block is row `5000 t + p` of the array. -/
def row (t : Fin cfg0.N) (p : Fin 5000) : Fin 50000 := ⟨t.val * 5000 + p.val, by have := lt_ten t; have := p.isLt; omega⟩

/-- The features' block at a point, read at an entry. -/
theorem read0_0 (c : Dev nD) (t : Fin cfg0.N) (p : Fin 5000) (k : Fin 128) :
    iblk0 V c 0 t (ix2 p k) = V c main_arg0 (ix2 (row t p) k) := by
  unfold iblk0
  show V c (Pipeline.arrRef spec0 0) (((cfg0.win 0).blk t).view.emb (ix2 p k)) = _
  refine congrArg (V c main_arg0) (funext fun a => Fin.ext ?_)
  obtain ⟨e0, e1, -⟩ := idx0 t
  match a with
  | ⟨0, _⟩ => show win0_0.index t (0 : Fin 2) * 5000 + 1 * p.val = t.val * 5000 + p.val; omega
  | ⟨1, _⟩ => show win0_0.index t (1 : Fin 2) * 128 + 1 * k.val = k.val; omega

/-- The weights' block is the whole matrix at every point. -/
theorem read0_1 (c : Dev nD) (t : Fin cfg0.N) (k : Fin 128) (q : Fin 128) :
    iblk0 V c 1 t (ix2 k q) = V c main_arg2 (ix2 k q) := by
  unfold iblk0
  show V c (Pipeline.arrRef spec0 1) (((cfg0.win 1).blk t).view.emb (ix2 k q)) = _
  refine congrArg (V c main_arg2) (funext fun a => Fin.ext ?_)
  obtain ⟨-, -, e2, e3, -⟩ := idx0 t
  match a with
  | ⟨0, _⟩ => show win0_1.index t (0 : Fin 2) * 128 + 1 * k.val = k.val; omega
  | ⟨1, _⟩ => show win0_1.index t (1 : Fin 2) * 128 + 1 * q.val = q.val; omega

/-- The scale column's block at a point, read at an entry. -/
theorem read0_2 (c : Dev nD) (t : Fin cfg0.N) (p : Fin 5000) :
    iblk0 V c 2 t (ix2 p (0 : Fin 1)) = V c main_v15 (ix2 (row t p) (0 : Fin 1)) := by
  unfold iblk0
  show V c (Pipeline.arrRef spec0 2) (((cfg0.win 2).blk t).view.emb (ix2 p (0 : Fin 1))) = _
  refine congrArg (V c main_v15) (funext fun a => Fin.ext ?_)
  obtain ⟨-, -, -, -, e4, e5, -⟩ := idx0 t
  match a with
  | ⟨0, _⟩ => show win0_2.index t (0 : Fin 2) * 5000 + 1 * p.val = t.val * 5000 + p.val; omega
  | ⟨1, _⟩ => show win0_2.index t (1 : Fin 2) * 1 + 1 * 0 = 0; omega

/-- Entry `(p, q)` of the output's block at point `t` is entry `(5000 t + p, q)` of the array. -/
theorem emb0_3 (t : Fin cfg0.N) (p : Fin 5000) (q : Fin 128) :
    ((cfg0.win 3).blk t).view.emb (ix2 p q) = ix2 (row t p) q := by
  funext a; apply Fin.ext
  obtain ⟨-, -, -, -, -, -, e6, e7⟩ := idx0 t
  match a with
  | ⟨0, _⟩ => show win0_3.index t (0 : Fin 2) * 5000 + 1 * p.val = t.val * 5000 + p.val; omega
  | ⟨1, _⟩ => show win0_3.index t (1 : Fin 2) * 128 + 1 * q.val = q.val; omega

/-- WHAT POINT `t` WRITES BACK is block `t` of the scaled product of the arrays as the region finds them. -/
theorem flushed0 (c : Dev nD) (t : Fin cfg0.N) :
    (dat0 V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext y
  obtain ⟨p, q, rfl⟩ : ∃ (p : Fin 5000) (q : Fin 128), y = ix2 p q := ⟨y 0, y 1, eq_ix2 y⟩
  refine (Cert.KernelIdeal.Body.pay0_apply (iblk0 V c 0 t) (iblk0 V c 1 t) (iblk0 V c 2 t) p q).trans ?_
  show _ = G0 (V c main_arg0) (V c main_arg2) (V c main_v15) (((cfg0.win 3).blk t).view.emb (ix2 p q))
  rw [emb0_3, G0_apply, read0_2]
  refine congrArg (· * V c main_v15 (ix2 (row t p) (0 : Fin 1))) (Finset.sum_congr rfl fun k _ => ?_)
  rw [read0_0, read0_1]

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- The ten blocks tile the array: row `r` is in the block of point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  refine ⟨⟨(i 0).val / 5000, hN⟩, flush0_3 _, ?_⟩
  rw [mem_blk0]
  obtain ⟨-, -, -, -, -, -, e6, e7⟩ := idx0 ⟨(i 0).val / 5000, hN⟩
  have e6' : win0_3.index ⟨(i 0).val / 5000, hN⟩ (0 : Fin 2) = (i 0).val / 5000 := e6
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 128 ≤ (i 1).val
      ∧ (i 1).val < win0_3.index ⟨(i 0).val / 5000, hN⟩ (1 : Fin 2) * 128 + 128
    omega

/-- THE ARRAY the region leaves: the scaled product of the arrays it found. -/
theorem final0 (c : Dev nD) :
    (dat0 V c).arrAt 3 cfg0.N = G0 (V c main_arg0) (V c main_arg2) (V c main_v15) :=
  (dat0 V c).arrAt_eq_of_cover 3 _ (fun t _ => flushed0 V c t) cover0

end Cert.KernelIdeal.Val0

end
-- ==== Proof.KBlock1.lean ====
/-
  The second region's output array as one function of the arrays the region finds.

  Point `t` of the ten loads rows `5000 t … 5000 t + 4999` of the aggregated features and of the scale column, the
  whole one-row bias and the whole weight matrix, and writes back the same rows of the output. The stored entry
  depends on its own row only, so the blocks are restrictions of ONE function of the whole arrays,

      out (r, q) = (∑ k, max (a (r, k) · s (r) + b (k)) 0 · W (k, q)) · s (r),

  and the ten blocks tile the array.
-/
import proofs.«155907_j6236292514024_2_alg».proof.Proof.Gen.KernelIdeal.Frame
import proofs.«155907_j6236292514024_2_alg».proof.Proof.KBodies
import Idealize.ShloMosaic.Lib.Pipeline.Value
import Idealize.ShloMosaic.Lib.ValueIdx

set_option maxRecDepth 16384

noncomputable section

open scoped BigOperators

namespace Cert.KernelIdeal.Val1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The middle layer, entry by entry: the aggregated row scaled, biased and rectified, against column `q` of the
    weights, times the row's scale. -/
def G1 (a : S50000x128.Idx → EReal) (s : S50000x1.Idx → EReal) (b : S1x128.Idx → EReal) (W : S128x40.Idx → EReal) :
    S50000x40.Idx → EReal :=
  fun i => (∑ k : Fin 128, max (a (ix2 (⟨(i 0).val, idx2_lt0 i⟩ : Fin 50000) k) * s (ix2 (⟨(i 0).val, idx2_lt0 i⟩ : Fin 50000) (0 : Fin 1))
        + b (ix2 (0 : Fin 1) k)) 0 * W (ix2 k (⟨(i 1).val, idx2_lt1 i⟩ : Fin 40)))
    * s (ix2 (⟨(i 0).val, idx2_lt0 i⟩ : Fin 50000) (0 : Fin 1))

theorem G1_apply (a : S50000x128.Idx → EReal) (s : S50000x1.Idx → EReal) (b : S1x128.Idx → EReal) (W : S128x40.Idx → EReal)
    (r : Fin 50000) (q : Fin 40) :
    G1 a s b W (ix2 r q) = (∑ k : Fin 128, max (a (ix2 r k) * s (ix2 r (0 : Fin 1)) + b (ix2 (0 : Fin 1) k)) 0 * W (ix2 k q))
      * s (ix2 r (0 : Fin 1)) := rfl

/-- The index maps over the grid: the row-blocked windows sit at block `t` of the rows, the bias and the weights at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_ten (t : Fin cfg1.N) : t.val < 10 := lt_of_lt_of_eq t.isLt N_1

/-- Row `p` of point `t`'s block is row `5000 t + p` of the array. -/
def row (t : Fin cfg1.N) (p : Fin 5000) : Fin 50000 := ⟨t.val * 5000 + p.val, by have := lt_ten t; have := p.isLt; omega⟩

/-- The aggregated features' block at a point, read at an entry. -/
theorem read1_0 (c : Dev nD) (t : Fin cfg1.N) (p : Fin 5000) (k : Fin 128) :
    iblk1 V c 0 t (ix2 p k) = V c main_v27 (ix2 (row t p) k) := by
  unfold iblk1
  show V c (Pipeline.arrRef spec1 0) (((cfg1.win 0).blk t).view.emb (ix2 p k)) = _
  refine congrArg (V c main_v27) (funext fun a => Fin.ext ?_)
  obtain ⟨e0, e1, -⟩ := idx1 t
  match a with
  | ⟨0, _⟩ => show win1_0.index t (0 : Fin 2) * 5000 + 1 * p.val = t.val * 5000 + p.val; omega
  | ⟨1, _⟩ => show win1_0.index t (1 : Fin 2) * 128 + 1 * k.val = k.val; omega

/-- The scale column's block at a point, read at an entry. -/
theorem read1_1 (c : Dev nD) (t : Fin cfg1.N) (p : Fin 5000) :
    iblk1 V c 1 t (ix2 p (0 : Fin 1)) = V c main_v15 (ix2 (row t p) (0 : Fin 1)) := by
  unfold iblk1
  show V c (Pipeline.arrRef spec1 1) (((cfg1.win 1).blk t).view.emb (ix2 p (0 : Fin 1))) = _
  refine congrArg (V c main_v15) (funext fun a => Fin.ext ?_)
  obtain ⟨-, -, e2, e3, -⟩ := idx1 t
  match a with
  | ⟨0, _⟩ => show win1_1.index t (0 : Fin 2) * 5000 + 1 * p.val = t.val * 5000 + p.val; omega
  | ⟨1, _⟩ => show win1_1.index t (1 : Fin 2) * 1 + 1 * 0 = 0; omega

/-- The bias' block is the whole row at every point. -/
theorem read1_2 (c : Dev nD) (t : Fin cfg1.N) (k : Fin 128) :
    iblk1 V c 2 t (ix2 (0 : Fin 1) k) = V c main_v28 (ix2 (0 : Fin 1) k) := by
  unfold iblk1
  show V c (Pipeline.arrRef spec1 2) (((cfg1.win 2).blk t).view.emb (ix2 (0 : Fin 1) k)) = _
  refine congrArg (V c main_v28) (funext fun a => Fin.ext ?_)
  obtain ⟨-, -, -, -, e4, e5, -⟩ := idx1 t
  match a with
  | ⟨0, _⟩ => show win1_2.index t (0 : Fin 2) * 1 + 1 * 0 = 0; omega
  | ⟨1, _⟩ => show win1_2.index t (1 : Fin 2) * 128 + 1 * k.val = k.val; omega

/-- The weights' block is the whole matrix at every point. -/
theorem read1_3 (c : Dev nD) (t : Fin cfg1.N) (k : Fin 128) (q : Fin 40) :
    iblk1 V c 3 t (ix2 k q) = V c main_arg4 (ix2 k q) := by
  unfold iblk1
  show V c (Pipeline.arrRef spec1 3) (((cfg1.win 3).blk t).view.emb (ix2 k q)) = _
  refine congrArg (V c main_arg4) (funext fun a => Fin.ext ?_)
  obtain ⟨-, -, -, -, -, -, e6, e7, -⟩ := idx1 t
  match a with
  | ⟨0, _⟩ => show win1_3.index t (0 : Fin 2) * 128 + 1 * k.val = k.val; omega
  | ⟨1, _⟩ => show win1_3.index t (1 : Fin 2) * 40 + 1 * q.val = q.val; omega

/-- Entry `(p, q)` of the output's block at point `t` is entry `(5000 t + p, q)` of the array. -/
theorem emb1_4 (t : Fin cfg1.N) (p : Fin 5000) (q : Fin 40) :
    ((cfg1.win 4).blk t).view.emb (ix2 p q) = ix2 (row t p) q := by
  funext a; apply Fin.ext
  obtain ⟨-, -, -, -, -, -, -, -, e8, e9⟩ := idx1 t
  match a with
  | ⟨0, _⟩ => show win1_4.index t (0 : Fin 2) * 5000 + 1 * p.val = t.val * 5000 + p.val; omega
  | ⟨1, _⟩ => show win1_4.index t (1 : Fin 2) * 40 + 1 * q.val = q.val; omega

/-- WHAT POINT `t` WRITES BACK is block `t` of the middle layer of the arrays as the region finds them. -/
theorem flushed1 (c : Dev nD) (t : Fin cfg1.N) :
    (dat1 V c).flushed 4 t
      = ((cfg1.win 4).blk t).view.read (Elt Ideal) (G1 (V c main_v27) (V c main_v15) (V c main_v28) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x40) hz]
  funext y
  obtain ⟨p, q, rfl⟩ : ∃ (p : Fin 5000) (q : Fin 40), y = ix2 p q := ⟨y 0, y 1, eq_ix2 y⟩
  refine (Cert.KernelIdeal.Body.pay1_apply (iblk1 V c 1 t) (iblk1 V c 0 t) (iblk1 V c 2 t) (iblk1 V c 3 t) p q).trans ?_
  show _ = G1 (V c main_v27) (V c main_v15) (V c main_v28) (V c main_arg4) (((cfg1.win 4).blk t).view.emb (ix2 p q))
  rw [emb1_4, G1_apply, read1_1]
  refine congrArg (· * V c main_v15 (ix2 (row t p) (0 : Fin 1))) (Finset.sum_congr rfl fun k _ => ?_)
  rw [read1_0, read1_2, read1_3]

/-- An index of the array is in point `t`'s block iff each coordinate is in the block's range on its axis. -/
theorem mem_blk1 (t : Fin cfg1.N) (i : S50000x40.Idx) :
    i ∈ ((cfg1.win 4).blk t).view.set ↔ ∀ a : Fin 2, win1_4.index t a * S5000x40.size a ≤ (i a).val
      ∧ (i a).val < win1_4.index t a * S5000x40.size a + S5000x40.size a := by
  show i ∈ ((View.whole main_v29).slice (win1_4.rect t)).set ↔ _
  rw [View.set_slice_whole, Rect.mem_set_unit]
  exact Iff.rfl

/-- The ten blocks tile the array: row `r` is in the block of point `r / 5000`. -/
theorem cover1 (i : S50000x40.Idx) :
    ∃ t : Fin cfg1.N, (cfg1.win 4).flush t = true ∧ i ∈ ((cfg1.win 4).blk t).view.set := by
  have hi0 : (i 0).val < 50000 := (i 0).isLt
  have hi1 : (i 1).val < 40 := (i 1).isLt
  have hN : (i 0).val / 5000 < cfg1.N := lt_of_lt_of_eq (by omega : (i 0).val / 5000 < 10) N_1.symm
  refine ⟨⟨(i 0).val / 5000, hN⟩, flush1_4 _, ?_⟩
  rw [mem_blk1]
  obtain ⟨-, -, -, -, -, -, -, -, e8, e9⟩ := idx1 ⟨(i 0).val / 5000, hN⟩
  have e8' : win1_4.index ⟨(i 0).val / 5000, hN⟩ (0 : Fin 2) = (i 0).val / 5000 := e8
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    omega
  | ⟨1, _⟩ =>
    show win1_4.index ⟨(i 0).val / 5000, hN⟩ (1 : Fin 2) * 40 ≤ (i 1).val
      ∧ (i 1).val < win1_4.index ⟨(i 0).val / 5000, hN⟩ (1 : Fin 2) * 40 + 40
    omega

/-- THE ARRAY the region leaves: the middle layer of the arrays it found. -/
theorem final1 (c : Dev nD) :
    (dat1 V c).arrAt 4 cfg1.N = G1 (V c main_v27) (V c main_v15) (V c main_v28) (V c main_arg4) :=
  (dat1 V c).arrAt_eq_of_cover 4 _ (fun t _ => flushed1 V c t) cover1

end Cert.KernelIdeal.Val1

end
-- ==== Proof.KBlock2.lean ====
/-
  The third region's output array as one function of the arrays the region finds.

  Point `t` of the ten loads rows `5000 t … 5000 t + 4999` of the aggregated features and of the scale column and
  the whole one-row bias, and writes back the same rows of the output. The stored entry is the logarithm of the
  softmax along its own row of `z (r, g) = a (r, g) · s (r) + b (g)`, so the blocks are restrictions of ONE function of
  the whole arrays, and the ten blocks tile the array.
-/
import proofs.«155907_j6236292514024_2_alg».proof.Proof.Gen.KernelIdeal.Frame
import proofs.«155907_j6236292514024_2_alg».proof.Proof.KBodies
import Idealize.ShloMosaic.Lib.Pipeline.Value
import Idealize.ShloMosaic.Lib.ValueIdx

set_option maxRecDepth 16384

noncomputable section

open scoped BigOperators

namespace Cert.KernelIdeal.Val2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The last layer, entry by entry: the logarithm of the softmax along the row of the aggregate scaled and biased. -/
def G2 (a : S50000x40.Idx → EReal) (s : S50000x1.Idx → EReal) (b : S1x40.Idx → EReal) : S50000x40.Idx → EReal :=
  fun i => Cert.GraphConv.logSoftmax
    (fun g : Fin 40 => a (ix2 (⟨(i 0).val, idx2_lt0 i⟩ : Fin 50000) g) * s (ix2 (⟨(i 0).val, idx2_lt0 i⟩ : Fin 50000) (0 : Fin 1))
      + b (ix2 (0 : Fin 1) g)) (⟨(i 1).val, idx2_lt1 i⟩ : Fin 40)

theorem G2_apply (a : S50000x40.Idx → EReal) (s : S50000x1.Idx → EReal) (b : S1x40.Idx → EReal) (r : Fin 50000) (q : Fin 40) :
    G2 a s b (ix2 r q)
      = Cert.GraphConv.logSoftmax (fun g : Fin 40 => a (ix2 r g) * s (ix2 r (0 : Fin 1)) + b (ix2 (0 : Fin 1) g)) q := rfl

/-- The index maps over the grid: the row-blocked windows sit at block `t` of the rows, the bias at block zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_ten (t : Fin cfg2.N) : t.val < 10 := lt_of_lt_of_eq t.isLt N_2

/-- Row `p` of point `t`'s block is row `5000 t + p` of the array. -/
def row (t : Fin cfg2.N) (p : Fin 5000) : Fin 50000 := ⟨t.val * 5000 + p.val, by have := lt_ten t; have := p.isLt; omega⟩

/-- The aggregated features' block at a point, read at an entry. -/
theorem read2_0 (c : Dev nD) (t : Fin cfg2.N) (p : Fin 5000) (g : Fin 40) :
    iblk2 V c 0 t (ix2 p g) = V c main_v40 (ix2 (row t p) g) := by
  unfold iblk2
  show V c (Pipeline.arrRef spec2 0) (((cfg2.win 0).blk t).view.emb (ix2 p g)) = _
  refine congrArg (V c main_v40) (funext fun a => Fin.ext ?_)
  obtain ⟨e0, e1, -⟩ := idx2 t
  match a with
  | ⟨0, _⟩ => show win2_0.index t (0 : Fin 2) * 5000 + 1 * p.val = t.val * 5000 + p.val; omega
  | ⟨1, _⟩ => show win2_0.index t (1 : Fin 2) * 40 + 1 * g.val = g.val; omega

/-- The scale column's block at a point, read at an entry. -/
theorem read2_1 (c : Dev nD) (t : Fin cfg2.N) (p : Fin 5000) :
    iblk2 V c 1 t (ix2 p (0 : Fin 1)) = V c main_v15 (ix2 (row t p) (0 : Fin 1)) := by
  unfold iblk2
  show V c (Pipeline.arrRef spec2 1) (((cfg2.win 1).blk t).view.emb (ix2 p (0 : Fin 1))) = _
  refine congrArg (V c main_v15) (funext fun a => Fin.ext ?_)
  obtain ⟨-, -, e2, e3, -⟩ := idx2 t
  match a with
  | ⟨0, _⟩ => show win2_1.index t (0 : Fin 2) * 5000 + 1 * p.val = t.val * 5000 + p.val; omega
  | ⟨1, _⟩ => show win2_1.index t (1 : Fin 2) * 1 + 1 * 0 = 0; omega

/-- The bias' block is the whole row at every point. -/
theorem read2_2 (c : Dev nD) (t : Fin cfg2.N) (g : Fin 40) :
    iblk2 V c 2 t (ix2 (0 : Fin 1) g) = V c main_v41 (ix2 (0 : Fin 1) g) := by
  unfold iblk2
  show V c (Pipeline.arrRef spec2 2) (((cfg2.win 2).blk t).view.emb (ix2 (0 : Fin 1) g)) = _
  refine congrArg (V c main_v41) (funext fun a => Fin.ext ?_)
  obtain ⟨-, -, -, -, e4, e5, -⟩ := idx2 t
  match a with
  | ⟨0, _⟩ => show win2_2.index t (0 : Fin 2) * 1 + 1 * 0 = 0; omega
  | ⟨1, _⟩ => show win2_2.index t (1 : Fin 2) * 40 + 1 * g.val = g.val; omega

/-- Entry `(p, q)` of the output's block at point `t` is entry `(5000 t + p, q)` of the array. -/
theorem emb2_3 (t : Fin cfg2.N) (p : Fin 5000) (q : Fin 40) :
    ((cfg2.win 3).blk t).view.emb (ix2 p q) = ix2 (row t p) q := by
  funext a; apply Fin.ext
  obtain ⟨-, -, -, -, -, -, e6, e7⟩ := idx2 t
  match a with
  | ⟨0, _⟩ => show win2_3.index t (0 : Fin 2) * 5000 + 1 * p.val = t.val * 5000 + p.val; omega
  | ⟨1, _⟩ => show win2_3.index t (1 : Fin 2) * 40 + 1 * q.val = q.val; omega

/-- WHAT POINT `t` WRITES BACK is block `t` of the last layer of the arrays as the region finds them. -/
theorem flushed2 (c : Dev nD) (t : Fin cfg2.N) :
    (dat2 V c).flushed 3 t
      = ((cfg2.win 3).blk t).view.read (Elt Ideal) (G2 (V c main_v40) (V c main_v15) (V c main_v41)) := by
  show (cfg2.win 3).cut (grid2.coords t) ((dat2 V c).after 3 t) = _
  rw [after2_3]
  unfold out2_3
  rw [View.canon_unit_zero hz]
  simp only [View.ld_unit_zero (S := S5000x40) hz, View.ld_unit_zero (S := S5000x1) hz, View.ld_unit_zero (S := S1x40) hz]
  funext y
  obtain ⟨p, q, rfl⟩ : ∃ (p : Fin 5000) (q : Fin 40), y = ix2 p q := ⟨y 0, y 1, eq_ix2 y⟩
  refine (Cert.KernelIdeal.Body.pay2_apply (iblk2 V c 0 t) (iblk2 V c 1 t) (iblk2 V c 2 t) p q).trans ?_
  show _ = G2 (V c main_v40) (V c main_v15) (V c main_v41) (((cfg2.win 3).blk t).view.emb (ix2 p q))
  rw [emb2_3, G2_apply, read2_1]
  refine congrArg (fun z : Fin 40 → EReal => Cert.GraphConv.logSoftmax z q) (funext fun g => ?_)
  rw [read2_0, read2_2]

/-- An index of the array is in point `t`'s block iff each coordinate is in the block's range on its axis. -/
theorem mem_blk2 (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v42).slice (win2_3.rect t)).set ↔ _
  rw [View.set_slice_whole, Rect.mem_set_unit]
  exact Iff.rfl

/-- The ten blocks tile the array: row `r` is in the block of point `r / 5000`. -/
theorem cover2 (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  have hN : (i 0).val / 5000 < cfg2.N := lt_of_lt_of_eq (by omega : (i 0).val / 5000 < 10) N_2.symm
  refine ⟨⟨(i 0).val / 5000, hN⟩, flush2_3 _, ?_⟩
  rw [mem_blk2]
  obtain ⟨-, -, -, -, -, -, e6, e7⟩ := idx2 ⟨(i 0).val / 5000, hN⟩
  have e6' : win2_3.index ⟨(i 0).val / 5000, hN⟩ (0 : Fin 2) = (i 0).val / 5000 := e6
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 40 ≤ (i 1).val
      ∧ (i 1).val < win2_3.index ⟨(i 0).val / 5000, hN⟩ (1 : Fin 2) * 40 + 40
    omega

/-- THE ARRAY the region leaves: the last layer of the arrays it found. -/
theorem final2 (c : Dev nD) :
    (dat2 V c).arrAt 3 cfg2.N = G2 (V c main_v40) (V c main_v15) (V c main_v41) :=
  (dat2 V c).arrAt_eq_of_cover 3 _ (fun t _ => flushed2 V c t) cover2

end Cert.KernelIdeal.Val2

end
-- ==== Proof.KWalk.lean ====
/-
  The kernel program's buffers at every boundary between its segments, as pure terms of the launch arrays.

  From the launch memory the contents at each boundary are a fold: a host stretch applies its operations, a region
  leaves its output array at one whole-array function of the arrays it found and every other buffer as it was.
  Walking the boundaries in order gives each buffer a region reads as a pure term of the six argument arrays:
  the edge words and the node scales after the first three stretches; the scaled product after the first region;
  its gather-and-sum and the first bias as a row after the next stretch; the middle layer after the second region;
  its gather-and-sum and the second bias as a row after the last stretch; and the result after the third region.
-/
import proofs.«155907_j6236292514024_2_alg».proof.Proof.Gen.KernelIdeal.Frame
import proofs.«155907_j6236292514024_2_alg».proof.Proof.KStretch
import proofs.«155907_j6236292514024_2_alg».proof.Proof.KBlock0
import proofs.«155907_j6236292514024_2_alg».proof.Proof.KBlock1
import proofs.«155907_j6236292514024_2_alg».proof.Proof.KBlock2

set_option maxRecDepth 16384

noncomputable section

namespace Cert.KernelIdeal.Walk

open Cert.KernelIdeal Cert.KernelIdeal.Gen Cert.KernelIdeal.HostTerms Cert.KernelIdeal.Stretch
open Idealize.ShloMosaic Idealize.ShloMosaic.TcCoe Idealize.ShloMosaic.StableHlo
open Idealize.SL Idealize.SL.Sem
open Idealize.ShloMosaic.Pipeline (Dat Cfg Window)

/-! ## The network's stages as pure terms of the argument arrays -/

/-- The node scales as a column. -/
def col (ei : IVec S2x800000 32) : FVec Ideal S50000x1 .f32 := shapeCast S50000x1 (scaleOf ei) shapeCasts_S50000_S50000x1
/-- The first region's array: the scaled product. -/
def t16 (x0 : FVec Ideal S50000x128 .f32) (ei : IVec S2x800000 32) (x2 : FVec Ideal S128x128 .f32) : FVec Ideal S50000x128 .bf16 :=
  Cert.KernelIdeal.Val0.G0 x0 x2 (col ei)
/-- Its rows gathered and summed per destination. -/
def t27 (x0 : FVec Ideal S50000x128 .f32) (ei : IVec S2x800000 32) (x2 : FVec Ideal S128x128 .f32) : FVec Ideal S50000x128 .f32 :=
  agg128 (t16 x0 ei x2) (srcWords ei) (dstWords ei)
/-- The second region's array: the middle layer. -/
def t29 (x0 : FVec Ideal S50000x128 .f32) (ei : IVec S2x800000 32) (x2 : FVec Ideal S128x128 .f32) (x3 : FVec Ideal S128 .f32)
    (x4 : FVec Ideal S128x40 .f32) : FVec Ideal S50000x40 .bf16 :=
  Cert.KernelIdeal.Val1.G1 (t27 x0 ei x2) (col ei) (shapeCast S1x128 x3 shapeCasts_S128_S1x128) x4
/-- Its rows gathered and summed per destination. -/
def t40 (x0 : FVec Ideal S50000x128 .f32) (ei : IVec S2x800000 32) (x2 : FVec Ideal S128x128 .f32) (x3 : FVec Ideal S128 .f32)
    (x4 : FVec Ideal S128x40 .f32) : FVec Ideal S50000x40 .f32 :=
  agg40 (t29 x0 ei x2 x3 x4) (srcWords ei) (dstWords ei)
/-- The third region's array: the result. -/
def kOut (x0 : FVec Ideal S50000x128 .f32) (ei : IVec S2x800000 32) (x2 : FVec Ideal S128x128 .f32) (x3 : FVec Ideal S128 .f32)
    (x4 : FVec Ideal S128x40 .f32) (x5 : FVec Ideal S40 .f32) : FVec Ideal S50000x40 .f32 :=
  Cert.KernelIdeal.Val2.G2 (t40 x0 ei x2 x3 x4) (col ei) (shapeCast S1x40 x5 shapeCasts_S40_S1x40)

variable (m : (ℓ : Loc nD τ sig) → Buf (Elt Ideal) ℓ) (ρ : Dev nD → PrngReg) (c : Dev nD)

/-! ## After the first stretch -/

theorem w1_v5 : W1 m ρ c (Proc.devRef .tc main_v5) = srcWords (m ((c : Thread nD τ).loc main_arg1)) := a0_v5 (W0 m ρ c)
theorem w1_v6 : W1 m ρ c (Proc.devRef .tc main_v6) = dstWords (m ((c : Thread nD τ).loc main_arg1)) := a0_v6 (W0 m ρ c)
theorem w1_v12 : W1 m ρ c (Proc.devRef .tc main_v12)
    = cmpf .ogt (degOf (m ((c : Thread nD τ).loc main_arg1))) (broadcastInDim S50000 ![] bcast_S_S50000 (constant S_ .f32 0x00000000#32)) := a0_v12 (W0 m ρ c)
theorem w1_v13 : W1 m ρ c (Proc.devRef .tc main_v13) = Host.rsqrt (degOf (m ((c : Thread nD τ).loc main_arg1))) := a0_v13 (W0 m ρ c)
theorem w1_cst_2 : W1 m ρ c (Proc.devRef .tc main_cst_2) = constant (F := Ideal) S_ .f32 0x00000000#32 := a0_cst2 (W0 m ρ c)
theorem w1_arg0 : W1 m ρ c (Proc.devRef .tc main_arg0) = (m ((c : Thread nD τ).loc main_arg0)) := a0_arg0 (W0 m ρ c)
theorem w1_arg2 : W1 m ρ c (Proc.devRef .tc main_arg2) = (m ((c : Thread nD τ).loc main_arg2)) := a0_arg2 (W0 m ρ c)
theorem w1_arg3 : W1 m ρ c (Proc.devRef .tc main_arg3) = (m ((c : Thread nD τ).loc main_arg3)) := a0_arg3 (W0 m ρ c)
theorem w1_arg4 : W1 m ρ c (Proc.devRef .tc main_arg4) = (m ((c : Thread nD τ).loc main_arg4)) := a0_arg4 (W0 m ρ c)
theorem w1_arg5 : W1 m ρ c (Proc.devRef .tc main_arg5) = (m ((c : Thread nD τ).loc main_arg5)) := a0_arg5 (W0 m ρ c)

/-! ## After the second stretch -/

theorem w2_v14 : W2 m ρ c (Proc.devRef .tc main_v14) = scaleOf (m ((c : Thread nD τ).loc main_arg1)) := by
  refine (a1_v14 (W1 m ρ c)).trans ?_
  rw [w1_v12, w1_v13, w1_cst_2]
  rfl
theorem w2_v5 : W2 m ρ c (Proc.devRef .tc main_v5) = srcWords (m ((c : Thread nD τ).loc main_arg1)) := (a1_v5 (W1 m ρ c)).trans (w1_v5 m ρ c)
theorem w2_v6 : W2 m ρ c (Proc.devRef .tc main_v6) = dstWords (m ((c : Thread nD τ).loc main_arg1)) := (a1_v6 (W1 m ρ c)).trans (w1_v6 m ρ c)
theorem w2_arg0 : W2 m ρ c (Proc.devRef .tc main_arg0) = (m ((c : Thread nD τ).loc main_arg0)) := (a1_arg0 (W1 m ρ c)).trans (w1_arg0 m ρ c)
theorem w2_arg2 : W2 m ρ c (Proc.devRef .tc main_arg2) = (m ((c : Thread nD τ).loc main_arg2)) := (a1_arg2 (W1 m ρ c)).trans (w1_arg2 m ρ c)
theorem w2_arg3 : W2 m ρ c (Proc.devRef .tc main_arg3) = (m ((c : Thread nD τ).loc main_arg3)) := (a1_arg3 (W1 m ρ c)).trans (w1_arg3 m ρ c)
theorem w2_arg4 : W2 m ρ c (Proc.devRef .tc main_arg4) = (m ((c : Thread nD τ).loc main_arg4)) := (a1_arg4 (W1 m ρ c)).trans (w1_arg4 m ρ c)
theorem w2_arg5 : W2 m ρ c (Proc.devRef .tc main_arg5) = (m ((c : Thread nD τ).loc main_arg5)) := (a1_arg5 (W1 m ρ c)).trans (w1_arg5 m ρ c)

/-! ## After the third stretch: the first region's entry -/

theorem w3_v15 : W3 m ρ c (Proc.devRef .tc main_v15) = col (m ((c : Thread nD τ).loc main_arg1)) :=
  (a2_v15 (W2 m ρ c)).trans (congrArg (fun v => shapeCast S50000x1 v shapeCasts_S50000_S50000x1) (w2_v14 m ρ c))
theorem w3_v5 : W3 m ρ c (Proc.devRef .tc main_v5) = srcWords (m ((c : Thread nD τ).loc main_arg1)) := (a2_v5 (W2 m ρ c)).trans (w2_v5 m ρ c)
theorem w3_v6 : W3 m ρ c (Proc.devRef .tc main_v6) = dstWords (m ((c : Thread nD τ).loc main_arg1)) := (a2_v6 (W2 m ρ c)).trans (w2_v6 m ρ c)
theorem w3_arg0 : W3 m ρ c (Proc.devRef .tc main_arg0) = (m ((c : Thread nD τ).loc main_arg0)) := (a2_arg0 (W2 m ρ c)).trans (w2_arg0 m ρ c)
theorem w3_arg2 : W3 m ρ c (Proc.devRef .tc main_arg2) = (m ((c : Thread nD τ).loc main_arg2)) := (a2_arg2 (W2 m ρ c)).trans (w2_arg2 m ρ c)
theorem w3_arg3 : W3 m ρ c (Proc.devRef .tc main_arg3) = (m ((c : Thread nD τ).loc main_arg3)) := (a2_arg3 (W2 m ρ c)).trans (w2_arg3 m ρ c)
theorem w3_arg4 : W3 m ρ c (Proc.devRef .tc main_arg4) = (m ((c : Thread nD τ).loc main_arg4)) := (a2_arg4 (W2 m ρ c)).trans (w2_arg4 m ρ c)
theorem w3_arg5 : W3 m ρ c (Proc.devRef .tc main_arg5) = (m ((c : Thread nD τ).loc main_arg5)) := (a2_arg5 (W2 m ρ c)).trans (w2_arg5 m ρ c)

/-! ## The first region's exit -/

theorem w4_v16 : W4 m ρ c (Proc.devRef .tc main_v16) = t16 (m ((c : Thread nD τ).loc main_arg0)) (m ((c : Thread nD τ).loc main_arg1)) (m ((c : Thread nD τ).loc main_arg2)) := by
  refine (W4_arr m ρ c 3).trans ((Cert.KernelIdeal.Val0.final0 (V3 m ρ) c).trans ?_)
  show Cert.KernelIdeal.Val0.G0 (W3 m ρ c (Proc.devRef .tc main_arg0)) (W3 m ρ c (Proc.devRef .tc main_arg2)) (W3 m ρ c (Proc.devRef .tc main_v15)) = _
  rw [w3_arg0, w3_arg2, w3_v15]
  rfl
theorem w4_v15 : W4 m ρ c (Proc.devRef .tc main_v15) = col (m ((c : Thread nD τ).loc main_arg1)) :=
  ((W4_arr m ρ c 2).trans (((dat0 (V3 m ρ) c).arrAt_in 2 rfl _).trans (A_eq0 (V3 m ρ) c 2))).trans (w3_v15 m ρ c)
theorem w4_v5 : W4 m ρ c (Proc.devRef .tc main_v5) = srcWords (m ((c : Thread nD τ).loc main_arg1)) := (W4_of_ne m ρ c main_v5 (by decide)).trans (w3_v5 m ρ c)
theorem w4_v6 : W4 m ρ c (Proc.devRef .tc main_v6) = dstWords (m ((c : Thread nD τ).loc main_arg1)) := (W4_of_ne m ρ c main_v6 (by decide)).trans (w3_v6 m ρ c)
theorem w4_arg3 : W4 m ρ c (Proc.devRef .tc main_arg3) = (m ((c : Thread nD τ).loc main_arg3)) := (W4_of_ne m ρ c main_arg3 (by decide)).trans (w3_arg3 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)

/-! ## After the fourth stretch: the second region's entry -/

theorem w5_v27 : W5 m ρ c (Proc.devRef .tc main_v27) = t27 (m ((c : Thread nD τ).loc main_arg0)) (m ((c : Thread nD τ).loc main_arg1)) (m ((c : Thread nD τ).loc main_arg2)) := by
  refine (b_v27 (W4 m ρ c)).trans ?_
  rw [w4_v16, w4_v5, w4_v6]
  rfl
theorem w5_v28 : W5 m ρ c (Proc.devRef .tc main_v28) = shapeCast S1x128 (m ((c : Thread nD τ).loc main_arg3)) shapeCasts_S128_S1x128 := by
  refine (b_v28 (W4 m ρ c)).trans ?_
  rw [w4_arg3]
theorem w5_v15 : W5 m ρ c (Proc.devRef .tc main_v15) = col (m ((c : Thread nD τ).loc main_arg1)) := (b_v15 (W4 m ρ c)).trans (w4_v15 m ρ c)
theorem w5_v5 : W5 m ρ c (Proc.devRef .tc main_v5) = srcWords (m ((c : Thread nD τ).loc main_arg1)) := (b_v5 (W4 m ρ c)).trans (w4_v5 m ρ c)
theorem w5_v6 : W5 m ρ c (Proc.devRef .tc main_v6) = dstWords (m ((c : Thread nD τ).loc main_arg1)) := (b_v6 (W4 m ρ c)).trans (w4_v6 m ρ c)
theorem w5_arg4 : W5 m ρ c (Proc.devRef .tc main_arg4) = (m ((c : Thread nD τ).loc main_arg4)) := (b_arg4 (W4 m ρ c)).trans (w4_arg4 m ρ c)
theorem w5_arg5 : W5 m ρ c (Proc.devRef .tc main_arg5) = (m ((c : Thread nD τ).loc main_arg5)) := (b_arg5 (W4 m ρ c)).trans (w4_arg5 m ρ c)

/-! ## The second region's exit -/

theorem w6_v29 : W6 m ρ c (Proc.devRef .tc main_v29)
    = t29 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((Cert.KernelIdeal.Val1.final1 (V5 m ρ) c).trans ?_)
  show Cert.KernelIdeal.Val1.G1 (W5 m ρ c (Proc.devRef .tc main_v27)) (W5 m ρ c (Proc.devRef .tc main_v15)) (W5 m ρ c (Proc.devRef .tc main_v28)) (W5 m ρ c (Proc.devRef .tc main_arg4)) = _
  rw [w5_v27, w5_v15, w5_v28, w5_arg4]
  rfl
theorem w6_v15 : W6 m ρ c (Proc.devRef .tc main_v15) = col (m ((c : Thread nD τ).loc main_arg1)) :=
  ((W6_arr m ρ c 1).trans (((dat1 (V5 m ρ) c).arrAt_in 1 rfl _).trans (A_eq1 (V5 m ρ) c 1))).trans (w5_v15 m ρ c)
theorem w6_v5 : W6 m ρ c (Proc.devRef .tc main_v5) = srcWords (m ((c : Thread nD τ).loc main_arg1)) := (W6_of_ne m ρ c main_v5 (by decide)).trans (w5_v5 m ρ c)
theorem w6_v6 : W6 m ρ c (Proc.devRef .tc main_v6) = dstWords (m ((c : Thread nD τ).loc main_arg1)) := (W6_of_ne m ρ c main_v6 (by decide)).trans (w5_v6 m ρ c)
theorem w6_arg5 : W6 m ρ c (Proc.devRef .tc main_arg5) = (m ((c : Thread nD τ).loc main_arg5)) := (W6_of_ne m ρ c main_arg5 (by decide)).trans (w5_arg5 m ρ c)

/-! ## After the last stretch: the third region's entry -/

theorem w7_v40 : W7 m ρ c (Proc.devRef .tc main_v40)
    = t40 (m ((c : Thread nD τ).loc main_arg0)) (m ((c : Thread nD τ).loc main_arg1)) (m ((c : Thread nD τ).loc main_arg2)) (m ((c : Thread nD τ).loc main_arg3)) (m ((c : Thread nD τ).loc main_arg4)) := by
  refine (c_v40 (W6 m ρ c)).trans ?_
  rw [w6_v29, w6_v5, w6_v6]
  rfl
theorem w7_v41 : W7 m ρ c (Proc.devRef .tc main_v41) = shapeCast S1x40 (m ((c : Thread nD τ).loc main_arg5)) shapeCasts_S40_S1x40 := by
  refine (c_v41 (W6 m ρ c)).trans ?_
  rw [w6_arg5]
theorem w7_v15 : W7 m ρ c (Proc.devRef .tc main_v15) = col (m ((c : Thread nD τ).loc main_arg1)) := (c_v15 (W6 m ρ c)).trans (w6_v15 m ρ c)

/-! ## The third region's exit: the result -/

/-- THE RESULT BUFFER at the last boundary is the network's term of the six argument arrays. -/
theorem w8_v42 : W8 m ρ c (Proc.devRef .tc main_v42)
    = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((Cert.KernelIdeal.Val2.final2 (V7 m ρ) c).trans ?_)
  show Cert.KernelIdeal.Val2.G2 (W7 m ρ c (Proc.devRef .tc main_v40)) (W7 m ρ c (Proc.devRef .tc main_v15)) (W7 m ρ c (Proc.devRef .tc main_v41)) = _
  rw [w7_v40, w7_v15, w7_v41]
  rfl

end Cert.KernelIdeal.Walk

end
-- ==== Proof.KHostAgg.lean ====
/-
  The aggregate between two regions, read at an entry.

  Rows gathered at the edges' wrapped source words and added into the rows the edges' destination words name: at
  an entry `(j, k)` the result is the sum, over the edges whose destination word reads as `j`, of entry `k` of the
  row the edge's wrapped source word names (read signed, clamped to the last node). The zero array the sums start
  from contributes nothing, and the rows' change of float format is the identity on extended reals.
-/
import proofs.«155907_j6236292514024_2_alg».proof.Proof.KHostTerms

noncomputable section

open scoped BigOperators

namespace Cert.KernelIdeal.HostTerms

open Cert.KernelIdeal Cert.KernelIdeal.Gen
open Idealize.ShloMosaic Idealize.ShloMosaic.ValueIdx

/-- Over the extended reals the host's accumulating scatter is the exact sum, at any shapes. -/
theorem scatterAdd_ideal {s si su : Shape} {w : ℕ} (d : ScatterDims s si su) (x : FVec Ideal s .f32) (idx : IVec si w)
    (u : FVec Ideal su .f32) : Host.scatterAdd d x idx u = Ideal.hostScatterAdd d x idx u := rfl

/-- THE AGGREGATE AT AN ENTRY: over the edges whose destination word reads as `j`, entry `k` of the row the edge's
    wrapped source word names. -/
theorem agg128_apply (h : FVec Ideal S50000x128 .bf16) (srcW dstW : IVec S850000 32) (j : Fin 50000) (k : Fin 128) :
    agg128 h srcW dstW (ix2 j k)
      = ∑ e : Fin 850000, if (rawIdx dstW (ix2 e (0 : Fin 1))).toInt = (j.val : Int) then h (ix2 (gRow (wrapIdx srcW) e) k) else 0 := by
  have hs : scatter_S50000x128_S850000x1_S850000x128_1_0_0_1
      = Cert.LibRows.scatDims (N := 50000) (E := 850000) (C := 128) scatter_S50000x128_S850000x1_S850000x128_1_0_0_1_wf := rfl
  have hg : gather_S50000x128_S850000x1_S850000x128_1_0_n_n_0_1_1128
      = Cert.LibRows.rowDims (N := 50000) (E := 850000) (C := 128) gather_S50000x128_S850000x1_S850000x128_1_0_n_n_0_1_1128_wf := rfl
  unfold agg128
  rw [scatterAdd_ideal, hs, Cert.LibSegment.rowScatter_apply, zeros128_apply, zero_add]
  refine Finset.sum_congr rfl fun e _ => ?_
  refine if_congr Iff.rfl ?_ rfl
  rw [extf_apply, hg, Cert.LibRows.row_gather_apply _ (by decide : 0 < 50000)]
  rfl

theorem agg40_apply (h : FVec Ideal S50000x40 .bf16) (srcW dstW : IVec S850000 32) (j : Fin 50000) (g : Fin 40) :
    agg40 h srcW dstW (ix2 j g)
      = ∑ e : Fin 850000, if (rawIdx dstW (ix2 e (0 : Fin 1))).toInt = (j.val : Int) then h (ix2 (gRow (wrapIdx srcW) e) g) else 0 := by
  have hs : scatter_S50000x40_S850000x1_S850000x40_1_0_0_1
      = Cert.LibRows.scatDims (N := 50000) (E := 850000) (C := 40) scatter_S50000x40_S850000x1_S850000x40_1_0_0_1_wf := rfl
  have hg : gather_S50000x40_S850000x1_S850000x40_1_0_n_n_0_1_140
      = Cert.LibRows.rowDims (N := 50000) (E := 850000) (C := 40) gather_S50000x40_S850000x1_S850000x40_1_0_n_n_0_1_140_wf := rfl
  unfold agg40
  rw [scatterAdd_ideal, hs, Cert.LibSegment.rowScatter_apply, zeros40_apply, zero_add]
  refine Finset.sum_congr rfl fun e _ => ?_
  refine if_congr Iff.rfl ?_ rfl
  rw [extf_apply, hg, Cert.LibRows.row_gather_apply _ (by decide : 0 < 50000)]
  rfl

end Cert.KernelIdeal.HostTerms

end
-- ==== Proof.EdgeData.lean ====
/-
  The graph both programs compute from the edge index array, named once.

  From the two rows of the edge index array, with one self loop per node appended, both programs form
  * the destination words as they are (a scatter reads them signed and lands nowhere when they name no node),
  * the source words and the destination words with negative values wrapped by the node count (a gather reads them
    signed and clamps them to the last node),
  * every node's degree (the count of edges landing on it) and its scale: the inverse square root of the degree where
    the degree is positive, zero elsewhere.
  Here they are taken from the reference's stages; the kernel program's buffers hold the same values.

  Two facts are all the network's algebra needs: a node's scale is nonnegative and not `+∞`, whatever the degree; and
  an edge that lands on node `j` has a destination word that reads as `j`, which is not negative, so wrapping leaves it
  alone and clamping it gives `j` again.
-/
import proofs.«155907_j6236292514024_2_alg».proof.Proof.RefRead
import proofs.«155907_j6236292514024_2_alg».proof.Proof.LibRows
import proofs.«155907_j6236292514024_2_alg».proof.Proof.LibGraphConv
import Idealize.ShloMosaic.Lib.ValueIdx

noncomputable section

namespace Cert.Edges

open Cert.ReferenceIdeal Cert.ReferenceIdeal.ReadP Idealize.ShloMosaic Idealize.ShloMosaic.ValueIdx

variable (ei : (⟨S2x800000, .i32⟩ : BufTy).Contents (Elt Ideal))

/-- The source words, negative values wrapped, one per edge (carried with a trailing unit axis). -/
def srcIdx : (⟨S850000x1, .i32⟩ : BufTy).Contents (Elt Ideal) := val_main_v36 (F := Ideal) ei
/-- The destination words as they are. -/
def dstIdx : (⟨S850000x1, .i32⟩ : BufTy).Contents (Elt Ideal) := val_main_v42 (F := Ideal) ei
/-- The destination words, negative values wrapped. -/
def dstWrapIdx : (⟨S850000x1, .i32⟩ : BufTy).Contents (Elt Ideal) := val_main_v27 (F := Ideal) ei
/-- Every node's scale. -/
def scaleVec : (⟨S50000, .f32⟩ : BufTy).Contents (Elt Ideal) := val_main_v14 (F := Ideal) ei

/-- Node `j`'s scale. -/
def d (j : Fin 50000) : EReal := scaleVec ei (ix1 j)
/-- The node an edge's source word names for a gather: read signed, clamped to the last node. -/
def src (e : Fin 850000) : Fin 50000 :=
  ⟨Cert.LibRows.clampRow 50000 (srcIdx ei (ix2 e (0 : Fin 1))), Cert.LibRows.clampRow_lt (by decide) _⟩
/-- The node an edge's wrapped destination word names for a gather. -/
def dst (e : Fin 850000) : Fin 50000 :=
  ⟨Cert.LibRows.clampRow 50000 (dstWrapIdx ei (ix2 e (0 : Fin 1))), Cert.LibRows.clampRow_lt (by decide) _⟩
/-- Edge `e` lands on node `j`: its destination word, read signed, is `j`. -/
def L (e : Fin 850000) (j : Fin 50000) : Prop := (dstIdx ei (ix2 e (0 : Fin 1))).toInt = (j.val : Int)

instance (e : Fin 850000) (j : Fin 50000) : Decidable (L ei e j) := by unfold L; infer_instance

/-- A node's scale is nonnegative and not `+∞`. -/
theorem scale_d (j : Fin 50000) : Cert.GraphConv.Scale (d ei j) := by
  unfold d scaleVec
  rw [val_main_v14_apply, val_main_v12_apply, val_main_v13_apply, val_main_call0_v1_apply, val_main_call0_v0_apply,
    val_main_cst_2_apply, val_main_v11_apply, val_main_cst_1_apply]
  -- whatever the degree is, the guarded inverse square root is a scale
  generalize val_main_v10 (F := Ideal) ei (ix1 j) = x
  rw [Ideal.cmpf_def, Ideal.hostUnary_rsqrt_def, Ideal.ofBits_def, Ideal.ofBits_zero_f32]
  by_cases hx : (0 : EReal) < x
  · have hc : Ideal.cmp .ogt x 0 = 1#1 := by
      show BitVec.ofBool (decide ((0 : EReal) < x)) = 1#1
      rw [decide_eq_true hx]; rfl
    rw [hc, select_one]
    exact Cert.GraphConv.scale_rsqrt hx
  · have hc : Ideal.cmp .ogt x 0 = 0#1 := by
      show BitVec.ofBool (decide ((0 : EReal) < x)) = 0#1
      rw [decide_eq_false hx]; rfl
    rw [hc, select_zero]
    exact Cert.GraphConv.scale_zero

/-- An edge that lands on `j` names `j` for a gather too. -/
theorem dst_of_L (e : Fin 850000) (j : Fin 50000) (h : L ei e j) : dst ei e = j := by
  unfold L dstIdx at h
  rw [val_main_v42_apply] at h
  refine Fin.ext ?_
  show Cert.LibRows.clampRow 50000 (val_main_v27 (F := Ideal) ei (ix2 e (0 : Fin 1))) = j.val
  rw [val_main_v27_apply, val_main_v26_apply, val_main_v23_apply, val_main_v22_apply, val_main_c_4_apply]
  -- both broadcasts read the same entry of the joined destination words
  have hidx : idx_main_v27 (ix2 e (0 : Fin 1)) = idx_main_v42 (ix2 e (0 : Fin 1)) := rfl
  rw [hidx]
  generalize val_main_v6 (F := Ideal) ei (idx_main_v42 (ix2 e (0 : Fin 1))) = w at h ⊢
  -- a word that reads as a node is not negative, so it is not wrapped
  have hs : w.slt 0#32 = false := by
    rw [Bool.eq_false_iff]
    intro hh
    have hlt := BitVec.slt_iff_toInt_lt.mp hh
    rw [h, BitVec.toInt_zero] at hlt
    omega
  have hc : IntOp.cmpi .slt w 0#32 = 0#1 := by
    show BitVec.ofBool (w.slt 0#32) = 0#1
    rw [hs]; rfl
  rw [hc, select_zero]
  exact Cert.LibRows.clampRow_of_toInt j.isLt h

end Cert.Edges

end
-- ==== Proof.KValue.lean ====
/-
  The kernel program's result, entry by entry, as the network that scales the features around each sum.

  The three regions' whole-array functions and the two gather-and-sum stages between them compose to one term of the
  six argument arrays. Read at an entry `(j, f)` of the result, with the graph the edge index array defines — the
  kernel program's edge words and node scales are the reference's, operation for operation —, it is the function
  `outS`: the features scaled by the source node's scale before each gather, the gathered rows summed per
  destination, the sum scaled by the destination node's scale.
-/
import proofs.«155907_j6236292514024_2_alg».proof.Proof.KWalk
import proofs.«155907_j6236292514024_2_alg».proof.Proof.KHostAgg
import proofs.«155907_j6236292514024_2_alg».proof.Proof.EdgeData
import proofs.«155907_j6236292514024_2_alg».proof.Proof.LibGraphConv

noncomputable section

open scoped BigOperators

namespace Cert.KernelIdeal.Value

open Cert.KernelIdeal Cert.KernelIdeal.Gen Cert.KernelIdeal.HostTerms Cert.KernelIdeal.Stretch Cert.KernelIdeal.Walk
open Idealize.ShloMosaic Idealize.ShloMosaic.ValueIdx
open Cert.GraphConv

variable (x0 : FVec Ideal S50000x128 .f32) (ei : IVec S2x800000 32) (x2 : FVec Ideal S128x128 .f32) (x3 : FVec Ideal S128 .f32)
  (x4 : FVec Ideal S128x40 .f32) (x5 : FVec Ideal S40 .f32)

/-! ## The kernel program's graph is the reference's -/

theorem scale_eq : scaleOf ei = Cert.Edges.scaleVec ei := rfl
theorem srcIdx_eq : wrapIdx (srcWords ei) = Cert.Edges.srcIdx ei := rfl
theorem dstIdx_eq : rawIdx (dstWords ei) = Cert.Edges.dstIdx ei := rfl

/-- The scale column's entry of row `j` is node `j`'s scale. -/
theorem col_d (j : Fin 50000) : col ei (ix2 j (0 : Fin 1)) = Cert.Edges.d ei j := by
  unfold col
  rw [col_apply, scale_eq]
  rfl

/-- The row a gather reads for edge `e` is the edge's source node. -/
theorem gRow_src (e : Fin 850000) : gRow (wrapIdx (srcWords ei)) e = Cert.Edges.src ei e := by
  rw [srcIdx_eq]
  rfl

/-- An edge's update lands on row `j` exactly when the edge lands on node `j`. -/
theorem lands_iff (e : Fin 850000) (j : Fin 50000) :
    (rawIdx (dstWords ei) (ix2 e (0 : Fin 1))).toInt = (j.val : Int) ↔ Cert.Edges.L ei e j := by
  rw [dstIdx_eq]
  exact Iff.rfl

/-! ## The stages at an entry -/

local notation "xc" => (fun (i : Fin 50000) (k : Fin 128) => x0 (ix2 i k))
local notation "W1c" => (fun (k : Fin 128) (g : Fin 128) => x2 (ix2 k g))
local notation "b1c" => (fun (k : Fin 128) => x3 (ix1 k))
local notation "W2c" => (fun (k : Fin 128) (g : Fin 40) => x4 (ix2 k g))
local notation "b2c" => (fun (g : Fin 40) => x5 (ix1 g))

theorem t16_apply (i : Fin 50000) (k : Fin 128) :
    t16 x0 ei x2 (ix2 i k) = hid1S (Cert.Edges.d ei) xc W1c i k := by
  unfold t16
  rw [Cert.KernelIdeal.Val0.G0_apply, col_d]
  rfl

theorem t27_apply (j : Fin 50000) (k : Fin 128) :
    t27 x0 ei x2 (ix2 j k) = agg1S (Cert.Edges.d ei) (Cert.Edges.src ei) (Cert.Edges.L ei) xc W1c j k := by
  unfold t27
  rw [agg128_apply]
  unfold agg1S nbr
  refine Finset.sum_congr rfl fun e _ => ?_
  refine if_congr (lands_iff ei e j) ?_ rfl
  rw [gRow_src, t16_apply]

theorem t29_apply (j : Fin 50000) (g : Fin 40) :
    t29 x0 ei x2 x3 x4 (ix2 j g)
      = hid2S (Cert.Edges.d ei) (Cert.Edges.src ei) (Cert.Edges.L ei) xc W1c b1c W2c j g := by
  unfold t29
  rw [Cert.KernelIdeal.Val1.G1_apply, col_d]
  unfold hid2S lin act1S
  refine congrArg (· * Cert.Edges.d ei j) (Finset.sum_congr rfl fun k _ => ?_)
  rw [t27_apply, row128_apply]

theorem t40_apply (j : Fin 50000) (g : Fin 40) :
    t40 x0 ei x2 x3 x4 (ix2 j g)
      = agg2S (Cert.Edges.d ei) (Cert.Edges.src ei) (Cert.Edges.L ei) xc W1c b1c W2c j g := by
  unfold t40
  rw [agg40_apply]
  unfold agg2S nbr
  refine Finset.sum_congr rfl fun e _ => ?_
  refine if_congr (lands_iff ei e j) ?_ rfl
  rw [gRow_src, t29_apply]

/-- THE KERNEL PROGRAM'S RESULT at an entry is the network that scales around each sum. -/
theorem kOut_apply (j : Fin 50000) (f : Fin 40) :
    kOut x0 ei x2 x3 x4 x5 (ix2 j f)
      = outS (Cert.Edges.d ei) (Cert.Edges.src ei) (Cert.Edges.L ei) xc W1c b1c W2c b2c j f := by
  unfold kOut
  rw [Cert.KernelIdeal.Val2.G2_apply]
  unfold outS
  refine congrArg (fun z : Fin 40 → EReal => logSoftmax z f) (funext fun g => ?_)
  rw [t40_apply, col_d, row40_apply]

end Cert.KernelIdeal.Value

end
-- ==== Proof.RefRunHand.lean ====
/-
  The reference program's run, with its result read as the last of its stages.

  The reference is a straight line of 98 host operations, each a pure function of buffers written before it. Every
  weakly fair execution ends with each buffer at the fold of the operations' results over the launch contents; a
  buffer no operation writes (an argument) ends as launched. The fold at the result buffer is the composition of the
  operations, which is the last of the reference's stages as functions of the argument arrays. The line is cut
  where few values are still to be read: after the source and destination words, after the edge weights, after the
  first layer's rectifier, after the second layer's bias; each piece's results are read at a generic valuation from
  the values of the pieces before it.
-/
import proofs.«155907_j6236292514024_2_alg».proof.Proof.RefRun
import proofs.«155907_j6236292514024_2_alg».proof.Proof.RefRead
import Idealize.ShloMosaic.Lib.StableHlo.Run
import Idealize.ShloMosaic.Lib.Pipeline.Frame

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Transports along a typed reference

A called function's operations read and write their buffers through a transport along the equation between the
buffer's type and the value's. Written and read back through the same reference the two transports cancel, whatever
the equation; at a literal reference the equation holds by computation and a single transport is the identity. -/

/-- Reading a typed reference's buffer back at the value's type undoes writing it there. -/
theorem ofBuf_toBuf {sig' : RefSig} {Val : EltTy → Type} {T : BufTy} (x : TRef sig' T) (v : T.Contents Val) :
    x.ofBuf (x.toBuf v) = v := by
  simp only [TRef.ofBuf, TRef.toBuf, cast_cast, cast_eq]

theorem ofBuf_cst_2 (v : (⟨S_, .f32⟩ : BufTy).Contents (Elt F)) :
    (TRef.of (sig := sig) (T := ⟨S_, .f32⟩) main_cst_2).ofBuf (Val := Elt F) v = v := rfl
theorem ofBuf_v12 (v : (⟨S50000, .i1⟩ : BufTy).Contents (Elt F)) :
    (TRef.of (sig := sig) (T := ⟨S50000, .i1⟩) main_v12).ofBuf (Val := Elt F) v = v := rfl
theorem ofBuf_v13 (v : (⟨S50000, .f32⟩ : BufTy).Contents (Elt F)) :
    (TRef.of (sig := sig) (T := ⟨S50000, .f32⟩) main_v13).ofBuf (Val := Elt F) v = v := rfl
theorem ofBuf_v46 (v : (⟨S50000x128, .f32⟩ : BufTy).Contents (Elt F)) :
    (TRef.of (sig := sig) (T := ⟨S50000x128, .f32⟩) main_v46).ofBuf (Val := Elt F) v = v := rfl
theorem ofBuf_v64 (v : (⟨S50000x40, .f32⟩ : BufTy).Contents (Elt F)) :
    (TRef.of (sig := sig) (T := ⟨S50000x40, .f32⟩) main_v64).ofBuf (Val := Elt F) v = v := rfl
theorem toBuf_v14 (v : (⟨S50000, .f32⟩ : BufTy).Contents (Elt F)) :
    (TRef.of (sig := sig) (T := ⟨S50000, .f32⟩) main_v14).toBuf (Val := Elt F) v = v := rfl
theorem toBuf_v47 (v : (⟨S50000x128, .f32⟩ : BufTy).Contents (Elt F)) :
    (TRef.of (sig := sig) (T := ⟨S50000x128, .f32⟩) main_v47).toBuf (Val := Elt F) v = v := rfl
theorem toBuf_v65 (v : (⟨S50000x40, .f32⟩ : BufTy).Contents (Elt F)) :
    (TRef.of (sig := sig) (T := ⟨S50000x40, .f32⟩) main_v65).toBuf (Val := Elt F) v = v := rfl

/-! ## The line in five pieces -/

/-- Operations 1 to 7: the source and destination words (each edge's, then each node's own). -/
abbrev opsA0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8 to 40: the node degrees, the node scales, the edge weights. -/
abbrev opsA1 : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v5 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v5 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 to 63: the first layer, through its rectifier. -/
abbrev opsB : List (HloOp τ sig (Elt F)) :=
  [ binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v5 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v5 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v5 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64 to 83: the second layer, through its bias. -/
abbrev opsC : List (HloOp τ sig (Elt F)) :=
  [ binary main_v47 main_arg4 main_v48 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v5 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v5 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v5 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v48 main_v54 main_v55 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v29 main_v56 (broadcastInDim S850000x1 ![0] bcast_S850000_S850000x1_0 : (⟨S850000, .f32⟩ : BufTy).Contents (Elt F) → (⟨S850000x1, .f32⟩ : BufTy).Contents (Elt F)),
    unary main_v56 main_v57 (broadcastInDim S850000x40 ![0, 1] bcast_S850000x1_S850000x40_0_1 : (⟨S850000x1, .f32⟩ : BufTy).Contents (Elt F) → (⟨S850000x40, .f32⟩ : BufTy).Contents (Elt F)),
    binary main_v55 main_v57 main_v58 (mulf : (⟨S850000x40, .f32⟩ : BufTy).Contents (Elt F) → (⟨S850000x40, .f32⟩ : BufTy).Contents (Elt F) → (⟨S850000x40, .f32⟩ : BufTy).Contents (Elt F)),
    nullary main_cst_11 (constant S_ .f32 0x00000000#32),
    unary main_cst_11 main_v59 (broadcastInDim S50000x40 ![] bcast_S_S50000x40 : (⟨S_, .f32⟩ : BufTy).Contents (Elt F) → (⟨S50000x40, .f32⟩ : BufTy).Contents (Elt F)),
    unary main_v6 main_v60 (broadcastInDim S850000x1 ![0] bcast_S850000_S850000x1_0 : (⟨S850000, .i32⟩ : BufTy).Contents (Elt F) → (⟨S850000x1, .i32⟩ : BufTy).Contents (Elt F)),
    ternary main_v59 main_v60 main_v58 main_v61 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    unary main_arg5 main_v62 (broadcastInDim S1x40 ![1] bcast_S40_S1x40_1 : (⟨S40, .f32⟩ : BufTy).Contents (Elt F) → (⟨S1x40, .f32⟩ : BufTy).Contents (Elt F)),
    unary main_v62 main_v63 (broadcastInDim S50000x40 ![0, 1] bcast_S1x40_S50000x40_0_1 : (⟨S1x40, .f32⟩ : BufTy).Contents (Elt F) → (⟨S50000x40, .f32⟩ : BufTy).Contents (Elt F)),
    binary main_v61 main_v63 main_v64 (addf : (⟨S50000x40, .f32⟩ : BufTy).Contents (Elt F) → (⟨S50000x40, .f32⟩ : BufTy).Contents (Elt F) → (⟨S50000x40, .f32⟩ : BufTy).Contents (Elt F)) ]

/-- Operations 84 to 98: the logarithm of the softmax along the class axis. -/
abbrev opsD : List (HloOp τ sig (Elt F)) :=
  [ TRef.nullary (TRef.of (T := ⟨S_, .f32⟩) main_call2_cst) (constant S_ .f32 0xFF800000#32),
    TRef.binary (TRef.of (T := ⟨S50000x40, .f32⟩) main_v64) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v64) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v65) subf ]

set_option maxRecDepth 8192 in
set_option maxHeartbeats 2000000 in
/-- The line is its five pieces in order. -/
theorem ops_split : (ops : List (HloOp τ sig (Elt F))) = opsA0 ++ (opsA1 ++ (opsB ++ (opsC ++ opsD))) := rfl

/-! ## The first piece, from argument 1

These two results are read by computation, from the valuation's own contents at argument 1. -/

set_option maxRecDepth 8192 in
set_option maxHeartbeats 2000000 in
/-- The source words after the first piece. -/
theorem pieceA0_v5 (V : Valuation τ sig (Elt F)) :
    after (opsA0 (F := F)) V (Proc.devRef .tc main_v5) = val_main_v5 (F := F) (V (Proc.devRef .tc main_arg1)) := by
  after_results_simp <;> rfl

set_option maxRecDepth 8192 in
set_option maxHeartbeats 2000000 in
/-- The destination words after the first piece. -/
theorem pieceA0_v6 (V : Valuation τ sig (Elt F)) :
    after (opsA0 (F := F)) V (Proc.devRef .tc main_v6) = val_main_v6 (F := F) (V (Proc.devRef .tc main_arg1)) := by
  after_results_simp <;> rfl

set_option maxRecDepth 8192 in
set_option maxHeartbeats 2000000 in
/-- The first piece writes no argument. -/
theorem keptA0_arg0 (V : Valuation τ sig (Elt F)) : after (opsA0 (F := F)) V (Proc.devRef .tc main_arg0) = V (Proc.devRef .tc main_arg0) := by
  after_results_simp

set_option maxRecDepth 8192 in
set_option maxHeartbeats 2000000 in
/-- The first piece writes no argument. -/
theorem keptA0_arg2 (V : Valuation τ sig (Elt F)) : after (opsA0 (F := F)) V (Proc.devRef .tc main_arg2) = V (Proc.devRef .tc main_arg2) := by
  after_results_simp

set_option maxRecDepth 8192 in
set_option maxHeartbeats 2000000 in
/-- The first piece writes no argument. -/
theorem keptA0_arg3 (V : Valuation τ sig (Elt F)) : after (opsA0 (F := F)) V (Proc.devRef .tc main_arg3) = V (Proc.devRef .tc main_arg3) := by
  after_results_simp

set_option maxRecDepth 8192 in
set_option maxHeartbeats 2000000 in
/-- The first piece writes no argument. -/
theorem keptA0_arg4 (V : Valuation τ sig (Elt F)) : after (opsA0 (F := F)) V (Proc.devRef .tc main_arg4) = V (Proc.devRef .tc main_arg4) := by
  after_results_simp

set_option maxRecDepth 8192 in
set_option maxHeartbeats 2000000 in
/-- The first piece writes no argument. -/
theorem keptA0_arg5 (V : Valuation τ sig (Elt F)) : after (opsA0 (F := F)) V (Proc.devRef .tc main_arg5) = V (Proc.devRef .tc main_arg5) := by
  after_results_simp

/-! ## The second piece, from the words -/

set_option maxRecDepth 8192 in
set_option maxHeartbeats 2000000 in
/-- The edge weights after the second piece. -/
theorem pieceA1_v29 (V : Valuation τ sig (Elt F)) (x1 : (⟨S2x800000, .i32⟩ : BufTy).Contents (Elt F)) (h5 : V (Proc.devRef .tc main_v5) = val_main_v5 (F := F) x1) (h6 : V (Proc.devRef .tc main_v6) = val_main_v6 (F := F) x1) :
    after (opsA1 (F := F)) V (Proc.devRef .tc main_v29) = val_main_v29 (F := F) x1 := by
  after_results_simp
  simp only [ofBuf_toBuf, ofBuf_cst_2, ofBuf_v12, ofBuf_v13, toBuf_v14, h5, h6]
  rfl

set_option maxRecDepth 8192 in
set_option maxHeartbeats 2000000 in
/-- The second piece leaves this buffer as it was. -/
theorem keptA1_v5 (V : Valuation τ sig (Elt F)) : after (opsA1 (F := F)) V (Proc.devRef .tc main_v5) = V (Proc.devRef .tc main_v5) := by
  after_results_simp

set_option maxRecDepth 8192 in
set_option maxHeartbeats 2000000 in
/-- The second piece leaves this buffer as it was. -/
theorem keptA1_v6 (V : Valuation τ sig (Elt F)) : after (opsA1 (F := F)) V (Proc.devRef .tc main_v6) = V (Proc.devRef .tc main_v6) := by
  after_results_simp

set_option maxRecDepth 8192 in
set_option maxHeartbeats 2000000 in
/-- The second piece leaves this buffer as it was. -/
theorem keptA1_arg0 (V : Valuation τ sig (Elt F)) : after (opsA1 (F := F)) V (Proc.devRef .tc main_arg0) = V (Proc.devRef .tc main_arg0) := by
  after_results_simp

set_option maxRecDepth 8192 in
set_option maxHeartbeats 2000000 in
/-- The second piece leaves this buffer as it was. -/
theorem keptA1_arg2 (V : Valuation τ sig (Elt F)) : after (opsA1 (F := F)) V (Proc.devRef .tc main_arg2) = V (Proc.devRef .tc main_arg2) := by
  after_results_simp

set_option maxRecDepth 8192 in
set_option maxHeartbeats 2000000 in
/-- The second piece leaves this buffer as it was. -/
theorem keptA1_arg3 (V : Valuation τ sig (Elt F)) : after (opsA1 (F := F)) V (Proc.devRef .tc main_arg3) = V (Proc.devRef .tc main_arg3) := by
  after_results_simp

set_option maxRecDepth 8192 in
set_option maxHeartbeats 2000000 in
/-- The second piece leaves this buffer as it was. -/
theorem keptA1_arg4 (V : Valuation τ sig (Elt F)) : after (opsA1 (F := F)) V (Proc.devRef .tc main_arg4) = V (Proc.devRef .tc main_arg4) := by
  after_results_simp

set_option maxRecDepth 8192 in
set_option maxHeartbeats 2000000 in
/-- The second piece leaves this buffer as it was. -/
theorem keptA1_arg5 (V : Valuation τ sig (Elt F)) : after (opsA1 (F := F)) V (Proc.devRef .tc main_arg5) = V (Proc.devRef .tc main_arg5) := by
  after_results_simp

/-! ## The third piece, from the words, the weights and arguments 0, 2, 3 -/

set_option maxRecDepth 8192 in
set_option maxHeartbeats 2000000 in
/-- The rectified first layer after the third piece. -/
theorem pieceB_v47 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (h0 : V (Proc.devRef .tc main_arg0) = x0) (h2 : V (Proc.devRef .tc main_arg2) = x2) (h3 : V (Proc.devRef .tc main_arg3) = x3)
    (h5 : V (Proc.devRef .tc main_v5) = val_main_v5 (F := F) x1) (h6 : V (Proc.devRef .tc main_v6) = val_main_v6 (F := F) x1) (h29 : V (Proc.devRef .tc main_v29) = val_main_v29 (F := F) x1) :
    after (opsB (F := F)) V (Proc.devRef .tc main_v47) = val_main_v47 (F := F) x0 x1 x2 x3 := by
  after_results_simp
  simp only [ofBuf_toBuf, ofBuf_v46, toBuf_v47, h0, h2, h3, h5, h6, h29]
  rfl

set_option maxRecDepth 8192 in
set_option maxHeartbeats 2000000 in
/-- The third piece leaves this buffer as it was. -/
theorem keptB_v5 (V : Valuation τ sig (Elt F)) : after (opsB (F := F)) V (Proc.devRef .tc main_v5) = V (Proc.devRef .tc main_v5) := by
  after_results_simp

set_option maxRecDepth 8192 in
set_option maxHeartbeats 2000000 in
/-- The third piece leaves this buffer as it was. -/
theorem keptB_v6 (V : Valuation τ sig (Elt F)) : after (opsB (F := F)) V (Proc.devRef .tc main_v6) = V (Proc.devRef .tc main_v6) := by
  after_results_simp

set_option maxRecDepth 8192 in
set_option maxHeartbeats 2000000 in
/-- The third piece leaves this buffer as it was. -/
theorem keptB_v29 (V : Valuation τ sig (Elt F)) : after (opsB (F := F)) V (Proc.devRef .tc main_v29) = V (Proc.devRef .tc main_v29) := by
  after_results_simp

set_option maxRecDepth 8192 in
set_option maxHeartbeats 2000000 in
/-- The third piece leaves this buffer as it was. -/
theorem keptB_arg4 (V : Valuation τ sig (Elt F)) : after (opsB (F := F)) V (Proc.devRef .tc main_arg4) = V (Proc.devRef .tc main_arg4) := by
  after_results_simp

set_option maxRecDepth 8192 in
set_option maxHeartbeats 2000000 in
/-- The third piece leaves this buffer as it was. -/
theorem keptB_arg5 (V : Valuation τ sig (Elt F)) : after (opsB (F := F)) V (Proc.devRef .tc main_arg5) = V (Proc.devRef .tc main_arg5) := by
  after_results_simp

/-! ## The fourth piece, from the rectified first layer, the words, the weights and arguments 4, 5 -/

set_option maxRecDepth 8192 in
set_option maxHeartbeats 2000000 in
/-- The second layer with its bias after the fourth piece. -/
theorem pieceC_v64 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h47 : V (Proc.devRef .tc main_v47) = val_main_v47 (F := F) x0 x1 x2 x3) (h4 : V (Proc.devRef .tc main_arg4) = x4) (h5' : V (Proc.devRef .tc main_arg5) = x5)
    (h5 : V (Proc.devRef .tc main_v5) = val_main_v5 (F := F) x1) (h6 : V (Proc.devRef .tc main_v6) = val_main_v6 (F := F) x1) (h29 : V (Proc.devRef .tc main_v29) = val_main_v29 (F := F) x1) :
    after (opsC (F := F)) V (Proc.devRef .tc main_v64) = val_main_v64 (F := F) x0 x1 x2 x3 x4 x5 := by
  after_results_simp
  simp only [h47, h4, h5', h5, h6, h29]
  rfl

/-! ## The fifth piece, from the second layer -/

set_option maxRecDepth 8192 in
set_option maxHeartbeats 2000000 in
/-- The result after the fifth piece. -/
theorem pieceD_v65 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h64 : V (Proc.devRef .tc main_v64) = val_main_v64 (F := F) x0 x1 x2 x3 x4 x5) :
    after (opsD (F := F)) V (Proc.devRef .tc main_v65) = val_main_v65 (F := F) x0 x1 x2 x3 x4 x5 := by
  after_results_simp
  simp only [ofBuf_toBuf, ofBuf_v64, toBuf_v65, h64]
  rfl

/-! ## The whole line -/

/-- THE FOLD AT THE RESULT BUFFER is the last stage of the argument buffers' contents. -/
theorem result_eq (W : Valuation τ sig (Elt F)) :
    after (ops (F := F)) W (Proc.devRef .tc main_v65)
      = val_main_v65 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  rw [ops_split, StableHlo.after_append, StableHlo.after_append, StableHlo.after_append, StableHlo.after_append]
  have a5 := pieceA0_v5 W
  have a6 := pieceA0_v6 W
  have a29 := pieceA1_v29 (after opsA0 W) (W (Proc.devRef .tc main_arg1)) a5 a6
  have a5' := (keptA1_v5 (after opsA0 W)).trans a5
  have a6' := (keptA1_v6 (after opsA0 W)).trans a6
  have k0 := (keptA1_arg0 (after opsA0 W)).trans (keptA0_arg0 W)
  have k2 := (keptA1_arg2 (after opsA0 W)).trans (keptA0_arg2 W)
  have k3 := (keptA1_arg3 (after opsA0 W)).trans (keptA0_arg3 W)
  have k4 := (keptA1_arg4 (after opsA0 W)).trans (keptA0_arg4 W)
  have k5 := (keptA1_arg5 (after opsA0 W)).trans (keptA0_arg5 W)
  have b47 := pieceB_v47 (after opsA1 (after opsA0 W)) (W (Proc.devRef .tc main_arg0)) (W (Proc.devRef .tc main_arg1)) (W (Proc.devRef .tc main_arg2)) (W (Proc.devRef .tc main_arg3)) k0 k2 k3 a5' a6' a29
  have b5 := (keptB_v5 (after opsA1 (after opsA0 W))).trans a5'
  have b6 := (keptB_v6 (after opsA1 (after opsA0 W))).trans a6'
  have b29 := (keptB_v29 (after opsA1 (after opsA0 W))).trans a29
  have b4 := (keptB_arg4 (after opsA1 (after opsA0 W))).trans k4
  have b5' := (keptB_arg5 (after opsA1 (after opsA0 W))).trans k5
  have c64 := pieceC_v64 (after opsB (after opsA1 (after opsA0 W))) (W (Proc.devRef .tc main_arg0)) (W (Proc.devRef .tc main_arg1)) (W (Proc.devRef .tc main_arg2)) (W (Proc.devRef .tc main_arg3)) (W (Proc.devRef .tc main_arg4)) (W (Proc.devRef .tc main_arg5))
    b47 b4 b5' b5 b6 b29
  exact pieceD_v65 (after opsC (after opsB (after opsA1 (after opsA0 W)))) _ _ _ _ _ _ c64

set_option maxRecDepth 8192 in
set_option maxHeartbeats 2000000 in
/-- No operation writes argument 0. -/
theorem kept_arg0 (W : Valuation τ sig (Elt F)) : after (ops (F := F)) W (Proc.devRef .tc main_arg0) = W (Proc.devRef .tc main_arg0) := by
  refine StableHlo.after_of_forall_not_mem (b := (Proc.devRef .tc main_arg0)) _ _ (List.forall_iff_forall_mem.mp ?_)
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
set_option maxRecDepth 8192 in
set_option maxHeartbeats 2000000 in
/-- No operation writes argument 1. -/
theorem kept_arg1 (W : Valuation τ sig (Elt F)) : after (ops (F := F)) W (Proc.devRef .tc main_arg1) = W (Proc.devRef .tc main_arg1) := by
  refine StableHlo.after_of_forall_not_mem (b := (Proc.devRef .tc main_arg1)) _ _ (List.forall_iff_forall_mem.mp ?_)
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
set_option maxRecDepth 8192 in
set_option maxHeartbeats 2000000 in
/-- No operation writes argument 2. -/
theorem kept_arg2 (W : Valuation τ sig (Elt F)) : after (ops (F := F)) W (Proc.devRef .tc main_arg2) = W (Proc.devRef .tc main_arg2) := by
  refine StableHlo.after_of_forall_not_mem (b := (Proc.devRef .tc main_arg2)) _ _ (List.forall_iff_forall_mem.mp ?_)
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
set_option maxRecDepth 8192 in
set_option maxHeartbeats 2000000 in
/-- No operation writes argument 3. -/
theorem kept_arg3 (W : Valuation τ sig (Elt F)) : after (ops (F := F)) W (Proc.devRef .tc main_arg3) = W (Proc.devRef .tc main_arg3) := by
  refine StableHlo.after_of_forall_not_mem (b := (Proc.devRef .tc main_arg3)) _ _ (List.forall_iff_forall_mem.mp ?_)
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
set_option maxRecDepth 8192 in
set_option maxHeartbeats 2000000 in
/-- No operation writes argument 4. -/
theorem kept_arg4 (W : Valuation τ sig (Elt F)) : after (ops (F := F)) W (Proc.devRef .tc main_arg4) = W (Proc.devRef .tc main_arg4) := by
  refine StableHlo.after_of_forall_not_mem (b := (Proc.devRef .tc main_arg4)) _ _ (List.forall_iff_forall_mem.mp ?_)
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)
set_option maxRecDepth 8192 in
set_option maxHeartbeats 2000000 in
/-- No operation writes argument 5. -/
theorem kept_arg5 (W : Valuation τ sig (Elt F)) : after (ops (F := F)) W (Proc.devRef .tc main_arg5) = W (Proc.devRef .tc main_arg5) := by
  refine StableHlo.after_of_forall_not_mem (b := (Proc.devRef .tc main_arg5)) _ _ (List.forall_iff_forall_mem.mp ?_)
  simp only [ops, List.Forall, StableHlo.nullary_writes, StableHlo.unary_writes, StableHlo.binary_writes, StableHlo.ternary_writes,
    StableHlo.reshape_writes, Finset.mem_singleton]
  repeat' apply And.intro
  all_goals exact StableHlo.devRef_ne_of_ne (by decide)

/-- On every device, from any memory with zero counters: every weakly fair execution of the reference terminates with
    its result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _)⟩)
    (run_seq scopedRefs_eq scopedSems_eq defs main (fun _ => ops) main_eq (fun _ => ops_sub) m ρ)

end Cert.ReferenceIdeal.RunHand

end
-- ==== Proof.RefValue.lean ====
/-
  The reference program's result, entry by entry, as the network that weights each edge's message.

  The reference forms every node's scale, gathers the two scales of each edge's ends and multiplies them into the
  edge's weight; a layer is then a dense product of the node features, a gather of each edge's source row, the
  product with the edge's weight spread along the row, and a sum of the messages per destination node; between the
  layers come a bias and the rectifier, after them a bias and the logarithm of the softmax along each row. Read one
  operation at a time, at an entry `(j, f)` of the result, this is the function `outW` of the arguments and of the
  graph the edge index array defines.
-/
import proofs.«155907_j6236292514024_2_alg».proof.Proof.RefRead
import proofs.«155907_j6236292514024_2_alg».proof.Proof.EdgeData
import proofs.«155907_j6236292514024_2_alg».proof.Proof.LibRows
import proofs.«155907_j6236292514024_2_alg».proof.Proof.LibSegment
import proofs.«155907_j6236292514024_2_alg».proof.Proof.LibGraphConv
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.ReadP Idealize.ShloMosaic Idealize.ShloMosaic.ValueIdx

section Stages

/-! ## The gathers and scatters of the program, read at an entry -/

/-- A gather of entries of a per-node array: the entry at the edge's word, read signed and clamped. -/
theorem gatherFlat_apply (x : (⟨S50000, .f32⟩ : BufTy).Contents (Elt Ideal)) (idx : (⟨S850000x1, .i32⟩ : BufTy).Contents (Elt Ideal))
    (e : Fin 850000) :
    Host.gather gather_S50000_S850000x1_S850000_n_0_n_n_0_1_1 x idx (ix1 e)
      = x (ix1 ⟨Cert.LibRows.clampRow 50000 (idx (ix2 e (0 : Fin 1))), Cert.LibRows.clampRow_lt (by decide) _⟩) :=
  Cert.LibRows.flat_gather_apply (N := 50000) (E := 850000) gather_S50000_S850000x1_S850000_n_0_n_n_0_1_1.wf (by decide) x idx e

/-- A gather of rows of 128 entries. -/
theorem gather128_apply (X : (⟨S50000x128, .f32⟩ : BufTy).Contents (Elt Ideal)) (idx : (⟨S850000x1, .i32⟩ : BufTy).Contents (Elt Ideal))
    (e : Fin 850000) (c : Fin 128) :
    Host.gather gather_S50000x128_S850000x1_S850000x128_1_0_n_n_0_1_1128 X idx (ix2 e c)
      = X (ix2 ⟨Cert.LibRows.clampRow 50000 (idx (ix2 e (0 : Fin 1))), Cert.LibRows.clampRow_lt (by decide) _⟩ c) :=
  Cert.LibRows.row_gather_apply (N := 50000) (E := 850000) (C := 128)
    gather_S50000x128_S850000x1_S850000x128_1_0_n_n_0_1_1128.wf (by decide) X idx e c

/-- A gather of rows of 40 entries. -/
theorem gather40_apply (X : (⟨S50000x40, .f32⟩ : BufTy).Contents (Elt Ideal)) (idx : (⟨S850000x1, .i32⟩ : BufTy).Contents (Elt Ideal))
    (e : Fin 850000) (c : Fin 40) :
    Host.gather gather_S50000x40_S850000x1_S850000x40_1_0_n_n_0_1_140 X idx (ix2 e c)
      = X (ix2 ⟨Cert.LibRows.clampRow 50000 (idx (ix2 e (0 : Fin 1))), Cert.LibRows.clampRow_lt (by decide) _⟩ c) :=
  Cert.LibRows.row_gather_apply (N := 50000) (E := 850000) (C := 40)
    gather_S50000x40_S850000x1_S850000x40_1_0_n_n_0_1_140.wf (by decide) X idx e c

/-- An accumulating scatter of rows of 128 entries: the operand's entry plus the updates of the edges that land on the row. -/
theorem scatter128_apply (Z : (⟨S50000x128, .f32⟩ : BufTy).Contents (Elt Ideal)) (idx : (⟨S850000x1, .i32⟩ : BufTy).Contents (Elt Ideal))
    (U : (⟨S850000x128, .f32⟩ : BufTy).Contents (Elt Ideal)) (j : Fin 50000) (c : Fin 128) :
    Host.scatterAdd (F := Ideal) (φ := .f32) scatter_S50000x128_S850000x1_S850000x128_1_0_0_1 Z idx U (ix2 j c)
      = Z (ix2 j c) + ∑ e : Fin 850000, if (idx (ix2 e (0 : Fin 1))).toInt = (j.val : Int) then U (ix2 e c) else 0 :=
  Cert.LibSegment.rowScatter_apply (N := 50000) (E := 850000) (C := 128)
    scatter_S50000x128_S850000x1_S850000x128_1_0_0_1.wf Z idx U j c

/-- An accumulating scatter of rows of 40 entries. -/
theorem scatter40_apply (Z : (⟨S50000x40, .f32⟩ : BufTy).Contents (Elt Ideal)) (idx : (⟨S850000x1, .i32⟩ : BufTy).Contents (Elt Ideal))
    (U : (⟨S850000x40, .f32⟩ : BufTy).Contents (Elt Ideal)) (j : Fin 50000) (c : Fin 40) :
    Host.scatterAdd (F := Ideal) (φ := .f32) scatter_S50000x40_S850000x1_S850000x40_1_0_0_1 Z idx U (ix2 j c)
      = Z (ix2 j c) + ∑ e : Fin 850000, if (idx (ix2 e (0 : Fin 1))).toInt = (j.val : Int) then U (ix2 e c) else 0 :=
  Cert.LibSegment.rowScatter_apply (N := 50000) (E := 850000) (C := 40)
    scatter_S50000x40_S850000x1_S850000x40_1_0_0_1.wf Z idx U j c

/-! ## Stages the program computes twice -/

variable (x1 : (⟨S2x800000, .i32⟩ : BufTy).Contents (Elt Ideal))

/-- The wrapped source words are formed three times with the same operations. -/
theorem v20_eq_v36 : val_main_v20 (F := Ideal) x1 = val_main_v36 (F := Ideal) x1 := rfl
theorem v54_eq_v36 : val_main_v54 (F := Ideal) x1 = val_main_v36 (F := Ideal) x1 := rfl
/-- The destination words are spread to a column three times. -/
theorem v60_eq_v42 : val_main_v60 (F := Ideal) x1 = val_main_v42 (F := Ideal) x1 := rfl

/-! ## The edge weight -/

/-- An edge's weight is the product of the scales of its two ends. -/
theorem weight_apply (e : Fin 850000) :
    val_main_v29 (F := Ideal) x1 (ix1 e) = Cert.Edges.d x1 (Cert.Edges.src x1 e) * Cert.Edges.d x1 (Cert.Edges.dst x1 e) := by
  rw [val_main_v29_apply, Ideal.mulf_def]
  unfold val_main_v21 val_main_v28
  rw [gatherFlat_apply, gatherFlat_apply, v20_eq_v36]
  rfl

/-- The edge's weight spread along a row of 128 entries. -/
theorem weight128_apply (e : Fin 850000) (k : Fin 128) :
    val_main_v39 (F := Ideal) x1 (ix2 e k) = val_main_v29 (F := Ideal) x1 (ix1 e) := by
  rw [val_main_v39_apply, val_main_v38_apply]
  exact congrArg _ (funext fun a => by match a with | ⟨0, _⟩ => rfl)

/-- The edge's weight spread along a row of 40 entries. -/
theorem weight40_apply (e : Fin 850000) (g : Fin 40) :
    val_main_v57 (F := Ideal) x1 (ix2 e g) = val_main_v29 (F := Ideal) x1 (ix1 e) := by
  rw [val_main_v57_apply, val_main_v56_apply]
  exact congrArg _ (funext fun a => by match a with | ⟨0, _⟩ => rfl)

/-! ## Layer one -/

variable (x0 : (⟨S50000x128, .f32⟩ : BufTy).Contents (Elt Ideal)) (x2 : (⟨S128x128, .f32⟩ : BufTy).Contents (Elt Ideal))
  (x3 : (⟨S128, .f32⟩ : BufTy).Contents (Elt Ideal)) (x4 : (⟨S128x40, .f32⟩ : BufTy).Contents (Elt Ideal))
  (x5 : (⟨S40, .f32⟩ : BufTy).Contents (Elt Ideal))

/-- The first dense layer at an entry. -/
theorem hid1_apply (i : Fin 50000) (k : Fin 128) :
    val_main_v30 (F := Ideal) x0 x2 (ix2 i k)
      = Cert.GraphConv.hid1W (fun i k => x0 (ix2 i k)) (fun k g => x2 (ix2 k g)) i k := by
  rw [val_main_v30_apply]
  unfold Cert.GraphConv.hid1W Cert.GraphConv.lin
  refine Finset.sum_congr rfl fun k' _ => ?_
  have e1 : lidx_main_v30 (ix2 i k) k' = ix2 i k' := funext fun a => by match a with | ⟨0, _⟩ => rfl | ⟨1, _⟩ => rfl
  have e2 : ridx_main_v30 (ix2 i k) k' = ix2 k' k := funext fun a => by match a with | ⟨0, _⟩ => rfl | ⟨1, _⟩ => rfl
  rw [e1, e2]

/-- Layer one's aggregate at an entry: the weighted messages of the edges that land on the node. -/
theorem agg1_apply (j : Fin 50000) (k : Fin 128) :
    val_main_v43 (F := Ideal) x0 x1 x2 (ix2 j k)
      = Cert.GraphConv.agg1W (Cert.Edges.d x1) (Cert.Edges.src x1) (Cert.Edges.dst x1) (Cert.Edges.L x1)
          (fun i k => x0 (ix2 i k)) (fun k g => x2 (ix2 k g)) j k := by
  unfold val_main_v43
  rw [scatter128_apply, val_main_v41_apply, val_main_cst_8_apply, Ideal.ofBits_def, Ideal.ofBits_zero_f32, zero_add]
  unfold Cert.GraphConv.agg1W Cert.GraphConv.nbr
  refine Finset.sum_congr rfl fun e _ => ?_
  refine if_congr Iff.rfl ?_ rfl
  rw [val_main_v40_apply, Ideal.mulf_def, weight128_apply, weight_apply]
  unfold val_main_v37
  rw [gather128_apply]
  exact congrArg (fun t : EReal => t * (Cert.Edges.d x1 (Cert.Edges.src x1 e) * Cert.Edges.d x1 (Cert.Edges.dst x1 e))) (hid1_apply x0 x2 (Cert.Edges.src x1 e) k)

/-- Layer one's output at an entry: the aggregate plus the bias, rectified. -/
theorem act1_apply (j : Fin 50000) (k : Fin 128) :
    val_main_v47 (F := Ideal) x0 x1 x2 x3 (ix2 j k)
      = Cert.GraphConv.act1W (Cert.Edges.d x1) (Cert.Edges.src x1) (Cert.Edges.dst x1) (Cert.Edges.L x1)
          (fun i k => x0 (ix2 i k)) (fun k g => x2 (ix2 k g)) (fun k => x3 (ix1 k)) j k := by
  rw [val_main_v47_apply, val_main_v46_apply, val_main_call1_v0_apply, val_main_call1_cst_apply, val_main_v45_apply,
    val_main_v44_apply, Ideal.maximumf_def, Ideal.addf_def, Ideal.ofBits_def, Ideal.ofBits_zero_f32, agg1_apply]
  unfold Cert.GraphConv.act1W
  have e : idx_main_v44 (idx_main_v45 (ix2 j k)) = ix1 k := funext fun a => by match a with | ⟨0, _⟩ => rfl
  rw [e]

/-! ## Layer two -/

/-- The second dense layer at an entry. -/
theorem hid2_apply (j : Fin 50000) (g : Fin 40) :
    val_main_v48 (F := Ideal) x0 x1 x2 x3 x4 (ix2 j g)
      = Cert.GraphConv.hid2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g := by
  rw [val_main_v48_apply]
  unfold Cert.GraphConv.hid2W Cert.GraphConv.lin
  refine Finset.sum_congr rfl fun k _ => ?_
  have e1 : lidx_main_v48 (ix2 j g) k = ix2 j k := funext fun a => by match a with | ⟨0, _⟩ => rfl | ⟨1, _⟩ => rfl
  have e2 : ridx_main_v48 (ix2 j g) k = ix2 k g := funext fun a => by match a with | ⟨0, _⟩ => rfl | ⟨1, _⟩ => rfl
  rw [e1, e2, act1_apply]

/-- Layer two's aggregate at an entry. -/
theorem agg2_apply (j : Fin 50000) (g : Fin 40) :
    val_main_v61 (F := Ideal) x0 x1 x2 x3 x4 (ix2 j g)
      = Cert.GraphConv.agg2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g := by
  unfold val_main_v61
  rw [scatter40_apply, val_main_v59_apply, val_main_cst_11_apply, Ideal.ofBits_def, Ideal.ofBits_zero_f32, zero_add, v60_eq_v42]
  unfold Cert.GraphConv.agg2W Cert.GraphConv.nbr
  refine Finset.sum_congr rfl fun e _ => ?_
  refine if_congr Iff.rfl ?_ rfl
  rw [val_main_v58_apply, Ideal.mulf_def, weight40_apply, weight_apply]
  unfold val_main_v55
  rw [gather40_apply, v54_eq_v36]
  exact congrArg (fun t : EReal => t * (Cert.Edges.d x1 (Cert.Edges.src x1 e) * Cert.Edges.d x1 (Cert.Edges.dst x1 e))) (hid2_apply x1 x0 x2 x3 x4 (Cert.Edges.src x1 e) g)

/-! ## The logarithm of the softmax along a row -/

/-- The logits at an entry: layer two's aggregate plus the bias. -/
theorem logits_apply (j : Fin 50000) (g : Fin 40) :
    val_main_v64 (F := Ideal) x0 x1 x2 x3 x4 x5 (ix2 j g)
      = Cert.GraphConv.agg2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g
        + x5 (ix1 g) := by
  rw [val_main_v64_apply, val_main_v63_apply, val_main_v62_apply, Ideal.addf_def, agg2_apply]
  have e : idx_main_v62 (idx_main_v63 (ix2 j g)) = ix1 g := funext fun a => by match a with | ⟨0, _⟩ => rfl
  rw [e]

/-- A node with column `k` put back is the entry (j, k). -/
theorem lift_ix2 (h : S50000x40.Reduces [1] S50000) (j : Fin 50000) (k : Fin (S50000x40.size 1)) :
    h.lift (ix1 j) k = ix2 j (⟨k.val, k.isLt⟩ : Fin 40) := by
  funext c; apply Fin.ext
  fin_cases c <;> rfl

/-- From `-∞` a reduce with a maximum body along the rows of any array is the row's maximum. -/
theorem rowMax_reduce (Y : FVec Ideal S50000x40 .f32) (h' : S50000x40.ReducesTo [1] S50000) (hu : 0 < S_.numel) (j : Fin 50000) :
    Host.reduce FloatOps.maximumf Y (constant (F := Ideal) S_ .f32 0xFF800000#32) h' hu (ix1 j)
      = Cert.GraphConv.rowMax (fun g : Fin 40 => Y (ix2 j g)) := by
  have h : S50000x40.Reduces [1] S50000 := by decide
  rw [Host.reduce_eq_fold_single FloatOps.maximumf Y _ h' h hu]
  have hf : (Y ∘ h.lift (ix1 j)) = fun g : Fin 40 => Y (ix2 j g) := funext fun k => congrArg Y (lift_ix2 h j k)
  unfold Cert.GraphConv.rowMax
  exact congrArg (fun f => Finset.fold max (Ideal.ofBits .f32 0xFF800000#32) f (Finset.univ : Finset (Fin 40))) hf

/-- The maximum along a row of the logits, taken from `-∞`. -/
theorem max_apply (j : Fin 50000) :
    val_main_call2_v0 (F := Ideal) x0 x1 x2 x3 x4 x5 (ix1 j)
      = Cert.GraphConv.rowMax (fun g : Fin 40 => val_main_v64 (F := Ideal) x0 x1 x2 x3 x4 x5 (ix2 j g)) := by
  unfold val_main_call2_v0 val_main_call2_cst
  generalize val_main_v64 (F := Ideal) x0 x1 x2 x3 x4 x5 = Y
  exact rowMax_reduce Y _ _ j

/-- A logit less its row's maximum. -/
theorem shift_apply (j : Fin 50000) (g : Fin 40) :
    val_main_call2_v5 (F := Ideal) x0 x1 x2 x3 x4 x5 (ix2 j g)
      = (Cert.GraphConv.agg2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g
        + x5 (ix1 g))
        - max (Ideal.ofBits .f32 0xFF800000#32) (Cert.GraphConv.rowMax fun g : Fin 40 =>
            Cert.GraphConv.agg2W (Cert.Edges.d x1) (Cert.Edges.src x1) (Cert.Edges.dst x1) (Cert.Edges.L x1)
              (fun i k => x0 (ix2 i k)) (fun k g => x2 (ix2 k g)) (fun k => x3 (ix1 k)) (fun k g => x4 (ix2 k g)) j g
            + x5 (ix1 g)) := by
  rw [val_main_call2_v5_apply, val_main_call2_v4_apply, val_main_call2_v3_apply, val_main_call2_v2_apply,
    val_main_call2_v1_apply, val_main_call2_cst_0_apply, Ideal.subf_def, Ideal.maximumf_def, Ideal.ofBits_def, logits_apply]
  have e : idx_main_call2_v3 (idx_main_call2_v4 (ix2 j g)) = ix1 j := funext fun a => by match a with | ⟨0, _⟩ => rfl
  rw [e, max_apply]
  have hz : (fun g : Fin 40 => val_main_v64 (F := Ideal) x0 x1 x2 x3 x4 x5 (ix2 j g))
      = fun g : Fin 40 => Cert.GraphConv.agg2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g
        + x5 (ix1 g) := funext fun g => logits_apply x1 x0 x2 x3 x4 x5 j g
  rw [hz]

end Stages

/-- THE REFERENCE'S RESULT at an entry is the edge-weighted network of the arguments. -/
theorem ref_value (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x40, .f32⟩ : BufTy).Contents (Elt Ideal)) (x5 : (⟨S40, .f32⟩ : BufTy).Contents (Elt Ideal))
    (j : Fin 50000) (f : Fin 40) :
    val_main_v65 (F := Ideal) x0 x1 x2 x3 x4 x5 (ix2 j f)
      = Cert.GraphConv.outW (Cert.Edges.d x1) (Cert.Edges.src x1) (Cert.Edges.dst x1) (Cert.Edges.L x1)
          (fun i k => x0 (ix2 i k)) (fun k g => x2 (ix2 k g)) (fun k => x3 (ix1 k))
          (fun k g => x4 (ix2 k g)) (fun g => x5 (ix1 g)) j f := by
  unfold Cert.GraphConv.outW
  rw [val_main_v65_apply, val_main_call2_v10_apply, val_main_call2_v9_apply, val_main_call2_v8_apply,
    val_main_call2_v7_apply, val_main_call2_cst_1_apply, Ideal.subf_def, Ideal.hostUnary_log_def, Ideal.ofBits_def,
    Ideal.ofBits_zero_f32, zero_add, RefValue.shift_apply]
  have e : idx_main_call2_v8 (idx_main_call2_v10 (ix2 j f)) = ix1 j := funext fun a => by match a with | ⟨0, _⟩ => rfl
  rw [e]
  -- every term of the row's sum is the exponential of a shifted logit
  have hsum : (∑ k : Fin 40, val_main_call2_v6 (F := Ideal) x0 x1 x2 x3 x4 x5 (idx_main_call2_v7 (ix1 j) k))
      = ∑ g : Fin 40, Ideal.exp ((Cert.GraphConv.agg2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g + x5 (ix1 g))
          - max (Ideal.ofBits .f32 0xFF800000#32) (Cert.GraphConv.rowMax fun g : Fin 40 =>
              Cert.GraphConv.agg2W (Cert.Edges.d x1) (Cert.Edges.src x1) (Cert.Edges.dst x1) (Cert.Edges.L x1)
          (fun i k => x0 (ix2 i k)) (fun k g => x2 (ix2 k g)) (fun k => x3 (ix1 k)) (fun k g => x4 (ix2 k g)) j g + x5 (ix1 g))) :=
    Finset.sum_congr rfl fun k _ => by
      have ek : idx_main_call2_v7 (ix1 j) k = ix2 j k := funext fun a => by match a with | ⟨0, _⟩ => rfl | ⟨1, _⟩ => rfl
      rw [ek, val_main_call2_v6_apply, Ideal.hostUnary_exp_def, RefValue.shift_apply]
  rw [hsum]

end Cert.ReferenceIdeal.RefValue

end
-- ==== Proof.lean ====
/-
  A two-layer graph convolution with symmetric normalization and a final logarithm of the softmax, computed two ways.

  Both programs read the same six arrays: node features `x` (50000 by 128), an edge index array (2 by 800000, to which
  one self loop per node is appended), two weight matrices and two biases. Both count every node's degree and take
  its scale `d`, the inverse square root of the degree where the degree is positive and zero elsewhere. One layer
  maps node features `h` to `j ↦ ∑_{e lands on j} h (src e) · d (src e) · d (dst e)`.

  * The reference multiplies each edge's gathered row by the edge's weight `d (src e) · d (dst e)` and sums the rows
    per destination node; between the layers it adds a bias and rectifies, after them it adds a bias and takes the
    logarithm of the softmax along each row.
  * The kernel program runs three kernels over ten blocks of 5000 nodes each, with a gather of rows and a sum per
    destination between them on the host. The first kernel forms `x · W₁` and scales row `i` by `d i`; the second
    scales row `j` of the summed rows by `d j`, adds the bias, rectifies, multiplies by `W₂` and scales by `d j` again;
    the third scales the summed rows by `d j`, adds the bias and takes the logarithm of the softmax along the row.
    Every rounding to a shorter float format is the identity on extended reals.

  Each kernel's blocks are restrictions of one function of the whole arrays, because a stored entry depends on its own
  row only, and the ten blocks tile the array; so the kernel program's result is one term of the six arrays, and read
  at an entry it scales the features before each gather and the sum after it. The reference's result read at an entry
  weights each message instead. The two agree: multiplication of extended reals is associative, an edge that lands on
  node `j` has the destination scale `d j`, and `d j`, being nonnegative and not `+∞`, distributes over the sum of the
  messages whatever their values (so finiteness of the inputs is never used). The maximum along a row is taken from
  `-∞` in both, and the reference's further maximum with `-∞` changes nothing.

  The frames: the two kernel programs' are the generated frame certificates; the reference's is its run with the
  result dropped. The kernel program's idealization rewrote no operation, so there is nothing to preserve.
-/
import proofs.«155907_j6236292514024_2_alg».proof.Defs
import proofs.«155907_j6236292514024_2_alg».proof.Proof.Gen.Kernel
import proofs.«155907_j6236292514024_2_alg».proof.Proof.Gen.Kernel.Skeleton
import proofs.«155907_j6236292514024_2_alg».proof.Proof.Gen.Kernel.Launch
import proofs.«155907_j6236292514024_2_alg».proof.Proof.Gen.Kernel.Points
import proofs.«155907_j6236292514024_2_alg».proof.Proof.Gen.Kernel.Frame
import proofs.«155907_j6236292514024_2_alg».proof.Proof.Gen.KernelIdeal
import proofs.«155907_j6236292514024_2_alg».proof.Proof.Gen.KernelIdeal.Skeleton
import proofs.«155907_j6236292514024_2_alg».proof.Proof.Gen.KernelIdeal.Launch
import proofs.«155907_j6236292514024_2_alg».proof.Proof.Gen.KernelIdeal.Points
import proofs.«155907_j6236292514024_2_alg».proof.Proof.Gen.KernelIdeal.Frame
import proofs.«155907_j6236292514024_2_alg».proof.Proof.Gen.ReferenceIdeal
import proofs.«155907_j6236292514024_2_alg».proof.Proof.Gen.Pre_finite_inputs
import proofs.«155907_j6236292514024_2_alg».proof.Proof.KRun
import proofs.«155907_j6236292514024_2_alg».proof.Proof.KWalk
import proofs.«155907_j6236292514024_2_alg».proof.Proof.KValue
import proofs.«155907_j6236292514024_2_alg».proof.Proof.RefRunHand
import proofs.«155907_j6236292514024_2_alg».proof.Proof.RefValue
import proofs.«155907_j6236292514024_2_alg».proof.Proof.EdgeData
import proofs.«155907_j6236292514024_2_alg».proof.Proof.LibGraphConv
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RunHand.run (F := Ideal) m ρ)

/-- The idealization rewrote no operation. -/
theorem preserves : Cert.preserves_Kernel_KernelIdeal := trivial

/-- Both programs end with the network's value: the kernel program's term of the six arrays, which the reference's
    last stage equals entry by entry. -/
theorem algebraic : Cert.algebraic_KernelIdeal_ReferenceIdeal := by
  intro m ρ m' ρ' _ hagree
  refine ⟨fun c => Cert.KernelIdeal.Walk.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.w8_v42 m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.RunHand.run (F := Ideal) m' ρ')
    obtain ⟨e0, e1, e2, e3, e4, e5⟩ := hagree c
    rw [e0, e1, e2, e3, e4, e5]
    beta_reduce
    funext i
    obtain ⟨j, f, rfl⟩ : ∃ (j : Fin 50000) (f : Fin 40), i = ix2 j f := ⟨i 0, i 1, eq_ix2 i⟩
    rw [Cert.ReferenceIdeal.RefValue.ref_value, Cert.KernelIdeal.Value.kOut_apply]
    exact Cert.GraphConv.outW_eq_outS _ _ _ _ _ _ _ _ _ (Cert.Edges.scale_d _) (Cert.Edges.dst_of_L _) j f

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
